-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x1 : Shape := ⟨2, ![40000, 1]⟩
abbrev S5000x128 : Shape := ⟨2, ![5000, 128]⟩
abbrev S5000x1 : Shape := ⟨2, ![5000, 1]⟩
abbrev S680000x128 : Shape := ⟨2, ![680000, 128]⟩
abbrev S1x128 : Shape := ⟨2, ![1, 128]⟩
abbrev S40000x64 : Shape := ⟨2, ![40000, 64]⟩
abbrev S5000x64 : Shape := ⟨2, ![5000, 64]⟩
abbrev S680000x64 : Shape := ⟨2, ![680000, 64]⟩
abbrev S1x64 : Shape := ⟨2, ![1, 64]⟩

abbrev nBuf : Space → Nat
  | .hbm => 75
  | .vmem => 42
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S40000, .i32⟩
  | .hbm, ⟨9, _⟩ => ⟨S1x640000, .i32⟩
  | .hbm, ⟨10, _⟩ => ⟨S640000, .i32⟩
  | .hbm, ⟨11, _⟩ => ⟨S680000, .i32⟩
  | .hbm, ⟨12, _⟩ => ⟨S1x640000, .i32⟩
  | .hbm, ⟨13, _⟩ => ⟨S640000, .i32⟩
  | .hbm, ⟨14, _⟩ => ⟨S680000, .i32⟩
  | .hbm, ⟨15, _⟩ => ⟨S_, .f32⟩
  | .hbm, ⟨16, _⟩ => ⟨S680000, .f32⟩
  | .hbm, ⟨17, _⟩ => ⟨S_, .f32⟩
  | .hbm, ⟨18, _⟩ => ⟨S40000, .f32⟩
  | .hbm, ⟨19, _⟩ => ⟨S680000x1, .i32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .i1⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S40000x128, .f32⟩
  | .hbm, ⟨31, _⟩ => ⟨S_, .i32⟩
  | .hbm, ⟨32, _⟩ => ⟨S680000, .i32⟩
  | .hbm, ⟨33, _⟩ => ⟨S680000, .i1⟩
  | .hbm, ⟨34, _⟩ => ⟨S_, .i32⟩
  | .hbm, ⟨35, _⟩ => ⟨S680000, .i32⟩
  | .hbm, ⟨36, _⟩ => ⟨S680000, .i32⟩
  | .hbm, ⟨37, _⟩ => ⟨S680000, .i32⟩
  | .hbm, ⟨38, _⟩ => ⟨S680000x1, .i32⟩
  | .hbm, ⟨39, _⟩ => ⟨S680000x128, .f32⟩
  | .hbm, ⟨40, _⟩ => ⟨S_, .f32⟩
  | .hbm, ⟨41, _⟩ => ⟨S40000x128, .f32⟩
  | .hbm, ⟨42, _⟩ => ⟨S680000x1, .i32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S_, .i32⟩
  | .hbm, ⟨47, _⟩ => ⟨S680000, .i32⟩
  | .hbm, ⟨48, _⟩ => ⟨S680000, .i1⟩
  | .hbm, ⟨49, _⟩ => ⟨S_, .i32⟩
  | .hbm, ⟨50, _⟩ => ⟨S680000, .i32⟩
  | .hbm, ⟨51, _⟩ => ⟨S680000, .i32⟩
  | .hbm, ⟨52, _⟩ => ⟨S680000, .i32⟩
  | .hbm, ⟨53, _⟩ => ⟨S680000x1, .i32⟩
  | .hbm, ⟨54, _⟩ => ⟨S680000x128, .f32⟩
  | .hbm, ⟨55, _⟩ => ⟨S_, .f32⟩
  | .hbm, ⟨56, _⟩ => ⟨S40000x128, .f32⟩
  | .hbm, ⟨57, _⟩ => ⟨S680000x1, .i32⟩
  | .hbm, ⟨58, _⟩ => ⟨S40000x128, .f32⟩
  | .hbm, ⟨59, _⟩ => ⟨S40000x128, .f32⟩
  | .hbm, ⟨60, _⟩ => ⟨S40000x64, .f32⟩
  | .hbm, ⟨61, _⟩ => ⟨S_, .i32⟩
  | .hbm, ⟨62, _⟩ => ⟨S680000, .i32⟩
  | .hbm, ⟨63, _⟩ => ⟨S680000, .i1⟩
  | .hbm, ⟨64, _⟩ => ⟨S_, .i32⟩
  | .hbm, ⟨65, _⟩ => ⟨S680000, .i32⟩
  | .hbm, ⟨66, _⟩ => ⟨S680000, .i32⟩
  | .hbm, ⟨67, _⟩ => ⟨S680000, .i32⟩
  | .hbm, ⟨68, _⟩ => ⟨S680000x1, .i32⟩
  | .hbm, ⟨69, _⟩ => ⟨S680000x64, .f32⟩
  | .hbm, ⟨70, _⟩ => ⟨S_, .f32⟩
  | .hbm, ⟨71, _⟩ => ⟨S40000x64, .f32⟩
  | .hbm, ⟨72, _⟩ => ⟨S680000x1, .i32⟩
  | .hbm, ⟨73, _⟩ => ⟨S40000x64, .f32⟩
  | .hbm, ⟨74, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x1, .f32⟩
  | .local _ .vmem, ⟨32, _⟩ => ⟨S5000x1, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S40000_S40000x1_0 : S40000.BroadcastsInDim S40000x1 (![0] : Fin 1 → Fin S40000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S40000x128 : S_.BroadcastsInDim S40000x128 (![] : Fin 0 → Fin S40000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S40000x64 : S_.BroadcastsInDim S40000x64 (![] : Fin 0 → Fin S40000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S40000_S680000x1_S680000_n_0_0_1_wf : ScatterDims.WF S40000 S680000x1 S680000 [] [0] [0] 1
  dot_S5000x128_S128x128_S5000x128_1_0_0_1_n_n_wf : DotDims.WF S5000x128 S128x128 S5000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S5000x128_S128x64_S5000x64_1_0_0_1_n_n_wf : DotDims.WF S5000x128 S128x64 S5000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S40000x128.size a
  hwx1_3 : ∀ i : grid1.Coords, EltTy.bits .f32 = 32 ∨ (Rect.block (s := S40000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S40000x1.size a
  hwx2_2 : ∀ i : grid2.Coords, EltTy.bits .f32 = 32 ∨ (Rect.block (s := S40000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S40000x128.size a
  hwx2_3 : ∀ i : grid2.Coords, EltTy.bits .f32 = 32 ∨ (Rect.block (s := S40000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S40000x1.size a
  hwx3_1 : ∀ i : grid3.Coords, EltTy.bits .f32 = 32 ∨ (Rect.block (s := S40000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S40000x128.size a
  hwx3_3 : ∀ i : grid3.Coords, EltTy.bits .f32 = 32 ∨ (Rect.block (s := S40000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S40000x1.size a
  hwx4_2 : ∀ i : grid4.Coords, EltTy.bits .f32 = 32 ∨ (Rect.block (s := S40000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S40000x64.size a
  hwx4_3 : ∀ i : grid4.Coords, EltTy.bits .f32 = 32 ∨ (Rect.block (s := S40000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S40000x64.size a
  hwx5_0 : ∀ i : grid5.Coords, EltTy.bits .f32 = 32 ∨ (Rect.block (s := S40000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S40000x1.size a
  hwx5_1 : ∀ i : grid5.Coords, EltTy.bits .f32 = 32 ∨ (Rect.block (s := S40000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S40000x64.size a
  hwx5_3 : ∀ i : grid5.Coords, EltTy.bits .f32 = 32 ∨ (Rect.block (s := S40000x64) S5000x64.size (cc5_transform_3 i) (hinb5_3 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v39) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S40000x64 : Shape := ⟨2, ![40000, 64]⟩
abbrev S680000x64 : Shape := ⟨2, ![680000, 64]⟩
abbrev S1x64 : Shape := ⟨2, ![1, 64]⟩

abbrev nBuf : Space → Nat
  | .hbm => 180
  | .vmem => 0
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S40000, .i32⟩
  | 9 => ⟨S1x640000, .i32⟩
  | 10 => ⟨S640000, .i32⟩
  | 11 => ⟨S680000, .i32⟩
  | 12 => ⟨S1x640000, .i32⟩
  | 13 => ⟨S640000, .i32⟩
  | 14 => ⟨S680000, .i32⟩
  | 15 => ⟨S40000x128, .f32⟩
  | 16 => ⟨S_, .f32⟩
  | 17 => ⟨S680000, .f32⟩
  | 18 => ⟨S_, .f32⟩
  | 19 => ⟨S40000, .f32⟩
  | 20 => ⟨S680000x1, .i32⟩
  | 21 => ⟨S40000, .f32⟩
  | 22 => ⟨S_, .f32⟩
  | 23 => ⟨S40000, .f32⟩
  | 24 => ⟨S40000, .i1⟩
  | 25 => ⟨S40000, .f32⟩
  | 26 => ⟨S_, .f32⟩
  | 27 => ⟨S_, .f32⟩
  | 28 => ⟨S40000, .f32⟩
  | 29 => ⟨S40000, .f32⟩
  | 30 => ⟨S_, .i32⟩
  | 31 => ⟨S680000, .i32⟩
  | 32 => ⟨S680000, .i1⟩
  | 33 => ⟨S_, .i32⟩
  | 34 => ⟨S680000, .i32⟩
  | 35 => ⟨S680000, .i32⟩
  | 36 => ⟨S680000, .i32⟩
  | 37 => ⟨S680000x1, .i32⟩
  | 38 => ⟨S680000, .f32⟩
  | 39 => ⟨S_, .i32⟩
  | 40 => ⟨S680000, .i32⟩
  | 41 => ⟨S680000, .i1⟩
  | 42 => ⟨S_, .i32⟩
  | 43 => ⟨S680000, .i32⟩
  | 44 => ⟨S680000, .i32⟩
  | 45 => ⟨S680000, .i32⟩
  | 46 => ⟨S680000x1, .i32⟩
  | 47 => ⟨S680000, .f32⟩
  | 48 => ⟨S680000, .f32⟩
  | 49 => ⟨S_, .i32⟩
  | 50 => ⟨S680000, .i32⟩
  | 51 => ⟨S680000, .i1⟩
  | 52 => ⟨S_, .i32⟩
  | 53 => ⟨S680000, .i32⟩
  | 54 => ⟨S680000, .i32⟩
  | 55 => ⟨S680000, .i32⟩
  | 56 => ⟨S680000x1, .i32⟩
  | 57 => ⟨S680000x128, .f32⟩
  | 58 => ⟨S680000x1, .f32⟩
  | 59 => ⟨S680000x128, .f32⟩
  | 60 => ⟨S680000x128, .f32⟩
  | 61 => ⟨S_, .f32⟩
  | 62 => ⟨S40000x128, .f32⟩
  | 63 => ⟨S680000x1, .i32⟩
  | 64 => ⟨S40000x128, .f32⟩
  | 65 => ⟨S1x128, .f32⟩
  | 66 => ⟨S40000x128, .f32⟩
  | 67 => ⟨S40000x128, .f32⟩
  | 68 => ⟨S_, .f32⟩
  | 69 => ⟨S40000x128, .f32⟩
  | 70 => ⟨S40000x128, .f32⟩
  | 71 => ⟨S40000x128, .f32⟩
  | 72 => ⟨S_, .f32⟩
  | 73 => ⟨S680000, .f32⟩
  | 74 => ⟨S_, .f32⟩
  | 75 => ⟨S40000, .f32⟩
  | 76 => ⟨S680000x1, .i32⟩
  | 77 => ⟨S40000, .f32⟩
  | 78 => ⟨S_, .f32⟩
  | 79 => ⟨S40000, .f32⟩
  | 80 => ⟨S40000, .i1⟩
  | 81 => ⟨S40000, .f32⟩
  | 82 => ⟨S_, .f32⟩
  | 83 => ⟨S_, .f32⟩
  | 84 => ⟨S40000, .f32⟩
  | 85 => ⟨S40000, .f32⟩
  | 86 => ⟨S_, .i32⟩
  | 87 => ⟨S680000, .i32⟩
  | 88 => ⟨S680000, .i1⟩
  | 89 => ⟨S_, .i32⟩
  | 90 => ⟨S680000, .i32⟩
  | 91 => ⟨S680000, .i32⟩
  | 92 => ⟨S680000, .i32⟩
  | 93 => ⟨S680000x1, .i32⟩
  | 94 => ⟨S680000, .f32⟩
  | 95 => ⟨S_, .i32⟩
  | 96 => ⟨S680000, .i32⟩
  | 97 => ⟨S680000, .i1⟩
  | 98 => ⟨S_, .i32⟩
  | 99 => ⟨S680000, .i32⟩
  | 100 => ⟨S680000, .i32⟩
  | 101 => ⟨S680000, .i32⟩
  | 102 => ⟨S680000x1, .i32⟩
  | 103 => ⟨S680000, .f32⟩
  | 104 => ⟨S680000, .f32⟩
  | 105 => ⟨S_, .i32⟩
  | 106 => ⟨S680000, .i32⟩
  | 107 => ⟨S680000, .i1⟩
  | 108 => ⟨S_, .i32⟩
  | 109 => ⟨S680000, .i32⟩
  | 110 => ⟨S680000, .i32⟩
  | 111 => ⟨S680000, .i32⟩
  | 112 => ⟨S680000x1, .i32⟩
  | 113 => ⟨S680000x128, .f32⟩
  | 114 => ⟨S680000x1, .f32⟩
  | 115 => ⟨S680000x128, .f32⟩
  | 116 => ⟨S680000x128, .f32⟩
  | 117 => ⟨S_, .f32⟩
  | 118 => ⟨S40000x128, .f32⟩
  | 119 => ⟨S680000x1, .i32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S40000x64, .f32⟩
  | _ => ⟨S40000x128, .f32⟩

abbrev hbmTy0_1 (i : Nat) : BufTy := match i % 128 with
  | 0 => ⟨S_, .f32⟩
  | 1 => ⟨S680000, .f32⟩
  | 2 => ⟨S_, .f32⟩
  | 3 => ⟨S40000, .f32⟩
  | 4 => ⟨S680000x1, .i32⟩
  | 5 => ⟨S40000, .f32⟩
  | 6 => ⟨S_, .f32⟩
  | 7 => ⟨S40000, .f32⟩
  | 8 => ⟨S40000, .i1⟩
  | 9 => ⟨S40000, .f32⟩
  | 10 => ⟨S_, .f32⟩
  | 11 => ⟨S_, .f32⟩
  | 12 => ⟨S40000, .f32⟩
  | 13 => ⟨S40000, .f32⟩
  | 14 => ⟨S_, .i32⟩
  | 15 => ⟨S680000, .i32⟩
  | 16 => ⟨S680000, .i1⟩
  | 17 => ⟨S_, .i32⟩
  | 18 => ⟨S680000, .i32⟩
  | 19 => ⟨S680000, .i32⟩
  | 20 => ⟨S680000, .i32⟩
  | 21 => ⟨S680000x1, .i32⟩
  | 22 => ⟨S680000, .f32⟩
  | 23 => ⟨S_, .i32⟩
  | 24 => ⟨S680000, .i32⟩
  | 25 => ⟨S680000, .i1⟩
  | 26 => ⟨S_, .i32⟩
  | 27 => ⟨S680000, .i32⟩
  | 28 => ⟨S680000, .i32⟩
  | 29 => ⟨S680000, .i32⟩
  | 30 => ⟨S680000x1, .i32⟩
  | 31 => ⟨S680000, .f32⟩
  | 32 => ⟨S680000, .f32⟩
  | 33 => ⟨S_, .i32⟩
  | 34 => ⟨S680000, .i32⟩
  | 35 => ⟨S680000, .i1⟩
  | 36 => ⟨S_, .i32⟩
  | 37 => ⟨S680000, .i32⟩
  | 38 => ⟨S680000, .i32⟩
  | 39 => ⟨S680000, .i32⟩
  | 40 => ⟨S680000x1, .i32⟩
  | 41 => ⟨S680000x64, .f32⟩
  | 42 => ⟨S680000x1, .f32⟩
  | 43 => ⟨S680000x64, .f32⟩
  | 44 => ⟨S680000x64, .f32⟩
  | 45 => ⟨S_, .f32⟩
  | 46 => ⟨S40000x64, .f32⟩
  | 47 => ⟨S680000x1, .i32⟩
  | 48 => ⟨S40000x64, .f32⟩
  | 49 => ⟨S1x64, .f32⟩
  | 50 => ⟨S40000x64, .f32⟩
  | 51 => ⟨S40000x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_26 : Ref sig .tc := ⟨.hbm, 151, rfl⟩
abbrev main_v105 : Ref sig .tc := ⟨.hbm, 152, rfl⟩
abbrev main_v106 : Ref sig .tc := ⟨.hbm, 153, rfl⟩
abbrev main_c_27 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_30 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S680000x1_S680000x64_0_1 : S680000x1.BroadcastsInDim S680000x64 (![0, 1] : Fin 2 → Fin S680000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  dot_S40000x128_S128x128_S40000x128_1_0_0_1_n_n_wf : DotDims.WF S40000x128 S128x128 S40000x128 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S40000x128_S128x64_S40000x64_1_0_0_1_n_n_wf : DotDims.WF S40000x128 S128x64 S40000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

class Facts : Prop extends Facts₀ where

variable [Facts]
-- ==== Proof.KRun.lean ====
/-
  The kernel's program run from any memory with zero counters: every weakly fair execution terminates, nothing faults,
  the eight argument arrays end as launched, and the result array ends at what the LAST segment boundary's contents
  hold for it.  The program is twelve segments — stretches of host operations and six kernel regions — and the
  contents at each boundary are a fold from the launch memory: a stretch applies its operations, a region replaces each
  of its output arrays by what its eight write-backs leave.  The frame theorem reads the argument arrays off the last
  boundary; this one reads the result array off it as well, which is what a statement about the result's VALUE needs.
-/
import proofs.«104596_j70145405878899_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v51) = W12 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v51 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunNamed

end
-- ==== Proof.Spec.lean ====
/-
  The mathematics of one graph-convolution layer, and of three of them in a row, over the extended reals.

  A node table `h : [40000, K]` is multiplied by a weight matrix `W : [K, C]`; every edge `e` of 680000 carries a source
  row `r e` and a destination word `cw e`, and node `n` collects the rows of the edges whose destination word, read as
  a signed integer, is `n`.  Each node has a scale `d n`.  The layer can be arranged in two ways:

  * scale the product's row `m` by `d m`, collect, scale the collected row `n` by `d n`, add the bias;
  * collect the product's rows with edge `e` weighted by `d (r e) · d (s e)`, where `s e` is the destination's clamped
    position, and add the bias.

  For an edge collected at `n` the position `s e` is `n`, so the weights are `d (r e) · d n`; the two arrangements agree
  because a product is associative and because a factor that is a NON-NEGATIVE REAL distributes over a sum of extended
  reals (a sum may hold both infinities, and an infinite factor would not distribute).
-/
import Idealize.ShloMosaic.PureOps.Ideal
import Idealize.ShloMosaic.Lib.ValueIdx

noncomputable section

open scoped BigOperators

namespace Cert.GcnSpec

open Idealize.ShloMosaic Idealize.ShloMosaic.ValueIdx

/-- A function of two coordinates read as a function of a rank-2 index. -/
def of2 {A B : ℕ} {α : Type} (f : Fin A → Fin B → α) : (⟨2, ![A, B]⟩ : Shape).Idx → α :=
  fun i => f ⟨(i 0).val, idx2_lt0 i⟩ ⟨(i 1).val, idx2_lt1 i⟩

theorem of2_ix2 {A B : ℕ} {α : Type} (f : Fin A → Fin B → α) (a : Fin A) (b : Fin B) : of2 f (ix2 a b) = f a b := rfl

/-- A factor that is a non-negative real distributes over a finite sum of extended reals. -/
theorem sum_mul_coe_of_nonneg {ι : Type} (S : Finset ι) (f : ι → EReal) (x : ℝ) (hx : 0 ≤ x) :
    (∑ i ∈ S, f i) * (x : EReal) = ∑ i ∈ S, f i * (x : EReal) := by
  classical
  induction S using Finset.induction_on with
  | empty => simp
  | insert a S ha ih =>
    rw [Finset.sum_insert ha, Finset.sum_insert ha,
      EReal.right_distrib_of_nonneg_of_ne_top (EReal.coe_nonneg.mpr hx) (EReal.coe_ne_top x), ih]

variable {K C : ℕ}

/-- Entry `(n, c)` of the product of `h : [40000, K]` by `W : [K, C]`. -/
def mm (h : (⟨2, ![40000, K]⟩ : Shape).Idx → EReal) (W : (⟨2, ![K, C]⟩ : Shape).Idx → EReal) (n : Fin 40000) (c : Fin C) : EReal :=
  ∑ k : Fin K, h (ix2 n k) * W (ix2 k c)

/-- The product with row `n` scaled by the column entry `dcol (n, 0)`. -/
def scaledArr (h : (⟨2, ![40000, K]⟩ : Shape).Idx → EReal) (W : (⟨2, ![K, C]⟩ : Shape).Idx → EReal)
    (dcol : (⟨2, ![40000, 1]⟩ : Shape).Idx → EReal) : (⟨2, ![40000, C]⟩ : Shape).Idx → EReal :=
  of2 fun n c => mm h W n c * dcol (ix2 n (0 : Fin 1))

/-- Row `n` collects the table's rows `r e` over the edges `e` whose destination word, read signed, is `n`. -/
def aggArr (cw : Fin 680000 → BitVec 32) (r : Fin 680000 → Fin 40000) (t : (⟨2, ![40000, C]⟩ : Shape).Idx → EReal) :
    (⟨2, ![40000, C]⟩ : Shape).Idx → EReal :=
  of2 fun n c => ∑ e ∈ Finset.univ.filter (fun e : Fin 680000 => (cw e).toInt = (n.val : ℤ)), t (ix2 (r e) c)

/-- The activation: the positive part, or nothing. -/
def act (relu : Bool) (x : EReal) : EReal := if relu = true then max x 0 else x

/-- Row `n` scaled by `dcol (n, 0)`, plus the bias, through the activation. -/
def biasArr (relu : Bool) (agg : (⟨2, ![40000, C]⟩ : Shape).Idx → EReal) (dcol : (⟨2, ![40000, 1]⟩ : Shape).Idx → EReal)
    (b : (⟨1, ![C]⟩ : Shape).Idx → EReal) : (⟨2, ![40000, C]⟩ : Shape).Idx → EReal :=
  of2 fun n c => act relu (agg (ix2 n c) * dcol (ix2 n (0 : Fin 1)) + b (ix1 c))

/-- The layer, first arrangement: scale, collect, scale, bias. -/
def layerK (relu : Bool) (cw : Fin 680000 → BitVec 32) (r : Fin 680000 → Fin 40000) (dcol : (⟨2, ![40000, 1]⟩ : Shape).Idx → EReal)
    (h : (⟨2, ![40000, K]⟩ : Shape).Idx → EReal) (W : (⟨2, ![K, C]⟩ : Shape).Idx → EReal) (b : (⟨1, ![C]⟩ : Shape).Idx → EReal) :
    (⟨2, ![40000, C]⟩ : Shape).Idx → EReal :=
  biasArr relu (aggArr cw r (scaledArr h W dcol)) dcol b

/-- The layer, second arrangement: collect with edge weights `d (r e) · d (s e)`, bias. -/
def layerR (relu : Bool) (cw : Fin 680000 → BitVec 32) (r s : Fin 680000 → Fin 40000) (d : (⟨1, ![40000]⟩ : Shape).Idx → EReal)
    (h : (⟨2, ![40000, K]⟩ : Shape).Idx → EReal) (W : (⟨2, ![K, C]⟩ : Shape).Idx → EReal) (b : (⟨1, ![C]⟩ : Shape).Idx → EReal) :
    (⟨2, ![40000, C]⟩ : Shape).Idx → EReal :=
  of2 fun n c => act relu ((∑ e ∈ Finset.univ.filter (fun e : Fin 680000 => (cw e).toInt = (n.val : ℤ)),
    mm h W (r e) c * (d (ix1 (r e)) * d (ix1 (s e)))) + b (ix1 c))

/-- The two arrangements are one function when the column holds the scales, every scale is a non-negative real, and an
    edge collected at `n` has `s e = n`. -/
theorem layerK_eq_layerR (relu : Bool) (cw : Fin 680000 → BitVec 32) (r s : Fin 680000 → Fin 40000)
    (d : (⟨1, ![40000]⟩ : Shape).Idx → EReal) (dcol : (⟨2, ![40000, 1]⟩ : Shape).Idx → EReal)
    (hdcol : ∀ n : Fin 40000, dcol (ix2 n (0 : Fin 1)) = d (ix1 n))
    (hd : ∀ n : Fin 40000, ∃ x : ℝ, 0 ≤ x ∧ d (ix1 n) = (x : EReal))
    (hs : ∀ (e : Fin 680000) (n : Fin 40000), (cw e).toInt = (n.val : ℤ) → s e = n)
    (h : (⟨2, ![40000, K]⟩ : Shape).Idx → EReal) (W : (⟨2, ![K, C]⟩ : Shape).Idx → EReal) (b : (⟨1, ![C]⟩ : Shape).Idx → EReal) :
    layerK relu cw r dcol h W b = layerR relu cw r s d h W b := by
  funext i
  obtain ⟨n, c, rfl⟩ : ∃ (n : Fin 40000) (c : Fin C), i = ix2 n c := ⟨i 0, i 1, eq_ix2 i⟩
  simp only [layerK, layerR, biasArr, aggArr, scaledArr, of2_ix2]
  refine congrArg (act relu) (congrArg (· + b (ix1 c)) ?_)
  obtain ⟨x, hx0, hx⟩ := hd n
  rw [hdcol n, hx, sum_mul_coe_of_nonneg _ _ x hx0]
  refine Finset.sum_congr rfl fun e he => ?_
  have hen : s e = n := hs e n (Finset.mem_filter.mp he).2
  rw [hdcol (r e), hen, hx, mul_assoc]

end Cert.GcnSpec

end
-- ==== Proof.KPrefix.lean ====
/-
  The kernel's program up to its first region.  Before the first kernel launch the host computes, from the edge list
  alone: the two index arrays of 680000 words (the edge list's rows, each followed by the self-loop indices 0 … 39999),
  the node degrees by scatter-adding ones, and the scale of each node — the reciprocal square root of its degree where
  the degree is positive, zero elsewhere — broadcast to a column [40000, 1].  These are the SAME host operations the
  reference applies, so each array is named here by the reference's own stage of that name; the argument arrays are
  untouched.
-/
import proofs.«104596_j70145405878899_2_alg».proof.Proof.Gen.KernelIdeal.Frame
import proofs.«104596_j70145405878899_2_alg».proof.Proof.RefRead
import proofs.«104596_j70145405878899_2_alg».proof.Proof.Spec

set_option maxRecDepth 16384

noncomputable section

namespace Cert.KernelIdeal.Walk

open Cert.KernelIdeal Cert.KernelIdeal.Gen Cert.GcnSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The scale column: the reference's scale vector as a column [40000, 1]. -/
abbrev dcolOf (x1 : (⟨S2x640000, .i32⟩ : BufTy).Contents (Elt Ideal)) : (⟨S40000x1, .f32⟩ : BufTy).Contents (Elt Ideal) :=
  broadcastInDim S40000x1 ![0] bcast_S40000_S40000x1_0 (Cert.ReferenceIdeal.Read.val_main_v15 (F := Ideal) x1)

theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg1 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_arg2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_arg6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_arg7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The source-row index array is the reference's. -/
theorem W3_v3 : W3 m ρ c (Proc.devRef .tc main_v3)
    = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl

/-- The destination index array is the reference's. -/
theorem W3_v6 : W3 m ρ c (Proc.devRef .tc main_v6)
    = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl

/-- The select of the outlined `where`, over any contents. -/
theorem where_result (V : Valuation τ sig (Elt Ideal)) :
    StableHlo.after hostOps0_1 V (Proc.devRef .tc main_v14)
      = (select (V (Proc.devRef .tc main_v12)) (V (Proc.devRef .tc main_v13))
          (broadcastInDim S40000 ![] bcast_S_S40000 (id (V (Proc.devRef .tc main_cst_2)))) :
          (⟨S40000, .f32⟩ : BufTy).Contents (Elt Ideal)) := by
  after_results
  rfl

/-- The column broadcast that follows it, over any contents. -/
theorem column_result (V : Valuation τ sig (Elt Ideal)) :
    StableHlo.after hostOps0_2 V (Proc.devRef .tc main_v15)
      = (broadcastInDim S40000x1 ![0] bcast_S40000_S40000x1_0 (V (Proc.devRef .tc main_v14)) :
          (⟨S40000x1, .f32⟩ : BufTy).Contents (Elt Ideal)) := by
  after_results

/-- "The degree is positive", the degree's reciprocal square root, and the zero the `where` falls back to. -/
theorem W1_v12 : W1 m ρ c (Proc.devRef .tc main_v12)
    = Cert.ReferenceIdeal.Read.val_main_v13 (F := Ideal) (m ((c : Thread nD τ).loc main_arg1)) := by
  show StableHlo.after hostOps0 (W0 m ρ c) (Proc.devRef .tc main_v12) = _
  after_results
  rfl

theorem W1_v13 : W1 m ρ c (Proc.devRef .tc main_v13)
    = Cert.ReferenceIdeal.Read.val_main_v14 (F := Ideal) (m ((c : Thread nD τ).loc main_arg1)) := by
  show StableHlo.after hostOps0 (W0 m ρ c) (Proc.devRef .tc main_v13) = _
  after_results
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results
  rfl

/-- The scale column is the reference's scale vector as a column. -/
theorem W3_v15 : W3 m ρ c (Proc.devRef .tc main_v15) = dcolOf (m ((c : Thread nD τ).loc main_arg1)) := by
  show StableHlo.after hostOps0_2 (StableHlo.after hostOps0_1 (W1 m ρ c)) (Proc.devRef .tc main_v15) = _
  rw [column_result, where_result, W1_v12, W1_v13, W1_cst_2]
  rfl

end Cert.KernelIdeal.Walk

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.HostAgg.lean ====
/-
  A table's rows gathered by one index per edge and then scatter-added by another, read at an index.

  `segment_sum(t[row], col)` of a table `t : [40000, C]`, with the row indices `sel : [680000, 1]` and the destination
  indices `col : [680000, 1]` as columns of 32-bit words: entry (n, c) of the result is the sum, over the edges `e` whose
  destination word read as a signed integer is `n`, of the table's entry (r e, c), where `r e` is edge `e`'s row index
  read signed and clamped into [0, 39999].  An edge whose destination falls outside [0, 40000) is dropped.  The
  accumulator starts at an array of zeros.
-/
import proofs.«104596_j70145405878899_2_alg».proof.Proof.Spec
import proofs.«104596_j70145405878899_2_alg».proof.Proof.LibScatterRows
import proofs.«104596_j70145405878899_2_alg».proof.Proof.LibGatherTable

noncomputable section

open scoped BigOperators

namespace Cert.GcnSpec

open Idealize.ShloMosaic Idealize.ShloMosaic.ValueIdx Idealize.ShloMosaic.ScatterRows Idealize.ShloMosaic.GatherTable

/-- Edge `e`'s destination word. -/
def colWord (col2d : IVec ⟨2, ![680000, 1]⟩ 32) : Fin 680000 → BitVec 32 := fun e => col2d (ix2 e (0 : Fin 1))

/-- Edge `e`'s source row: its index word read signed and clamped into the table. -/
def rowPos (sel2d : IVec ⟨2, ![680000, 1]⟩ 32) : Fin 680000 → Fin 40000 :=
  fun e => clampIdx 40000 (by decide) (sel2d (ix2 e (0 : Fin 1)))

variable {C : ℕ}

/-- The scatter-add of arbitrary update rows into zeros, read at (n, c). -/
theorem scatter_zero_apply (wfS : ScatterDims.WF ⟨2, ![40000, C]⟩ ⟨2, ![680000, 1]⟩ ⟨2, ![680000, C]⟩ [1] [0] [0] 1)
    (zero : FVec Ideal ⟨2, ![40000, C]⟩ .f32) (hzero : ∀ i, zero i = 0)
    (col2d : IVec ⟨2, ![680000, 1]⟩ 32) (upd : FVec Ideal ⟨2, ![680000, C]⟩ .f32) (n : Fin 40000) (c : Fin C) :
    Host.scatterAdd (rowDims 40000 C 680000 wfS) zero col2d upd (ix2 n c)
      = ∑ e ∈ Finset.univ.filter (fun e : Fin 680000 => (colWord col2d e).toInt = (n.val : ℤ)), upd (ix2 e c) := by
  rw [scatterAdd_rows_apply, hzero, zero_add]
  rfl

/-- Gather then scatter-add into zeros is the collecting function of the specification. -/
theorem scatter_gather_eq (wfS : ScatterDims.WF ⟨2, ![40000, C]⟩ ⟨2, ![680000, 1]⟩ ⟨2, ![680000, C]⟩ [1] [0] [0] 1)
    (wfG : GatherDims.WF ⟨2, ![40000, C]⟩ ⟨2, ![680000, 1]⟩ ⟨2, ![680000, C]⟩ [1] [0] [] [0] [] 1 ![1, C])
    (zero : FVec Ideal ⟨2, ![40000, C]⟩ .f32) (hzero : ∀ i, zero i = 0)
    (col2d sel2d : IVec ⟨2, ![680000, 1]⟩ 32) (t : FVec Ideal ⟨2, ![40000, C]⟩ .f32) :
    Host.scatterAdd (rowDims 40000 C 680000 wfS) zero col2d (Host.gather (rowsDims 40000 C 680000 wfG) t sel2d)
      = aggArr (colWord col2d) (rowPos sel2d) t := by
  funext i
  obtain ⟨n, c, rfl⟩ : ∃ (n : Fin 40000) (c : Fin C), i = ix2 n c := ⟨i 0, i 1, eq_ix2 i⟩
  rw [scatter_zero_apply wfS zero hzero]
  show _ = ∑ e ∈ Finset.univ.filter (fun e : Fin 680000 => (colWord col2d e).toInt = (n.val : ℤ)), t (ix2 (rowPos sel2d e) c)
  refine Finset.sum_congr rfl fun e _ => ?_
  exact gather_rows_apply (by decide) wfG t sel2d e c

end Cert.GcnSpec

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.Region0.lean ====
/-
  Region 0 of the kernel's program: a block of 5000 rows of a node table [40000, 128] is multiplied by a weight matrix
  [128, 128] and each row is scaled by that row's entry of a column [40000, 1].  Point `t` of the grid of 8 works on rows
  5000·t … 5000·t + 4999, the weight matrix is the same block at every point, and the 8 output blocks tile the output
  array.  So the array the region leaves is ONE function of the three arrays it finds: entry (n, c) is the product's
  entry (n, c) times the column's entry (n, 0).
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the row-by-column product of the loaded blocks times the column block's entry
    (p, 0).  Rounding the operands to bf16 changes nothing over the extended reals. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  show (matmul (F := Ideal) dot_S5000x128_S128x128_S5000x128_1_0_0_1_n_n none (truncf (F := Ideal) .bf16 x0 bitsLt_bf16_f32) (truncf (F := Ideal) .bf16 x1 bitsLt_bf16_f32)
      (constant (F := Ideal) S5000x128 .f32 0x00000000#32) (ix2 p q))
    * (broadcastTo S5000x128 (shapeCast S5000x1 x2 shapeCasts_S5000x1_S5000x1) broadcasts_S5000x1_S5000x128 (ix2 p q)) = _
  rw [Cert.LibKeepdims.broadcastTo_col_apply, shapeCast_self]
  exact congrArg (· * x2 (ix2 p (0 : Fin 1)))
    (Cert.KernelBody.matmul_plain_zero_apply dot_S5000x128_S128x128_S5000x128_1_0_0_1_n_n_wf none _ _ p q)

/-- A block whose loaded pieces are rows b·5000 … of the arrays holds, at (p, q), the whole-array function at
    (b·5000 + p, q). -/
theorem block_eq (A0 : (⟨2, ![40000, 128]⟩ : Shape).Idx → EReal) (A1 : (⟨2, ![128, 128]⟩ : Shape).Idx → EReal)
    (A2 : (⟨2, ![40000, 1]⟩ : Shape).Idx → EReal) (b : ℕ) (hb : b ≤ 7)
    (x0 : Vec Ideal S5000x128 .f32) (x1 : Vec Ideal S128x128 .f32) (x2 : Vec Ideal S5000x1 .f32)
    (h0 : ∀ (p : Fin 5000) (k : Fin 128), x0 (ix2 p k) = A0 (ix2 (⟨b * 5000 + p.val, by omega⟩ : Fin 40000) k))
    (h1 : ∀ (k : Fin 128) (q : Fin 128), x1 (ix2 k q) = A1 (ix2 k q))
    (h2 : ∀ p : Fin 5000, x2 (ix2 p (0 : Fin 1)) = A2 (ix2 (⟨b * 5000 + p.val, by omega⟩ : Fin 40000) (0 : Fin 1)))
    (p : Fin 5000) (q : Fin 128) :
    k0_pay1 (F := Ideal) x0 x1 x2 (ix2 p q) = scaledArr A0 A1 A2 (ix2 (⟨b * 5000 + p.val, by omega⟩ : Fin 40000) q) := by
  rw [pay_apply, h2 p]
  show _ = mm A0 A1 _ q * A2 _
  refine congrArg (· * A2 (ix2 (⟨b * 5000 + p.val, by omega⟩ : Fin 40000) (0 : Fin 1))) ?_
  exact Finset.sum_congr rfl fun k _ => by rw [h0 p k, h1 k q]

/-- The printed index maps over the grid: the table's, the column's and the output's blocks move together along the
    rows, the weight matrix stays, and there are 8 row blocks. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 7 :=
  (by decide +kernel : ∀ t : Fin grid0.N, _)

/-- Every row block is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg0.N) :
    (dat0 (F := Ideal) V c).flushed 3 t
      = ((cfg0.win 3).blk t).view.read (Elt Ideal) (scaledArr (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hemb : ((cfg0.win 3).blk t).view.emb (ix2 p q)
      = ix2 (⟨win0_3.index t (0 : Fin 2) * 5000 + p.val, by omega⟩ : Fin 40000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  show k0_pay1 (iblk0 V c 0 t) (iblk0 V c 1 t) (iblk0 V c 2 t) (ix2 p q)
    = scaledArr (V c main_arg0) (V c main_arg2) (V c main_v15) (((cfg0.win 3).blk t).view.emb (ix2 p q))
  rw [hemb]
  refine block_eq (V c main_arg0) (V c main_arg2) (V c main_v15) (win0_3.index t (0 : Fin 2)) e7 _ _ _ ?_ ?_ ?_ p q
  · intro p k
    show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  · intro k q
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · intro p
    show V c main_v15 (((cfg0.win 2).blk t).view.emb (ix2 p (0 : Fin 1))) = _
    refine congrArg _ (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 1 + 1 * (0 : Fin 1).val = (0 : Fin 1).val; omega

/-- An index of the output array is in point `t`'s block iff each coordinate is in the block's range on its axis. -/
theorem mem_blk (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in some point's block: row n is in block n / 5000. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the region leaves: the scaled product of the arrays it finds. -/
theorem final (c : Dev nD) :
    (dat0 (F := Ideal) V c).arrAt 3 cfg0.N = scaledArr (V c main_arg0) (V c main_arg2) (V c main_v15) :=
  (dat0 (F := Ideal) V c).arrAt_eq_of_cover 3 _ (fun t _ => flushed_eq V c t) cover

end

end Cert.KernelIdeal.Region0

end
-- ==== Proof.Region1.lean ====
/-
  Region 1 of the kernel's program: a block of 5000 rows of a collected table [40000, 128] is scaled row by row by a
  column [40000, 1], a bias row [128] is added, and the positive part is taken.  Point `t` of the grid of 8 works on rows
  5000·t … 5000·t + 4999, the bias is the same block at every point, and the 8 output blocks tile the output array.  So
  the array the region leaves is ONE function of the three arrays it finds: entry (n, c) is the positive part of the table's
  entry (n, c) times the column's entry (n, 0) plus the bias's entry c.
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

/-- The body's stored value at (p, q): the table block's entry times the column block's entry (p, 0), plus the bias's
    entry q, positive part. -/
theorem pay_apply (x0 : Vec Ideal S5000x128 .f32) (x1 : Vec Ideal S5000x1 .f32) (x2 : Vec Ideal S128 .f32)
    (p : Fin 5000) (q : Fin 128) :
    k1_pay1 (F := Ideal) x0 x1 x2 (ix2 p q) = act true (x0 (ix2 p q) * x1 (ix2 p (0 : Fin 1)) + x2 (ix1 q)) := by
  show (maximumf (F := Ideal) (addf (F := Ideal) (mulf (F := Ideal) (shapeCast S5000x128 x0 shapeCasts_S5000x128_S5000x128) (broadcastTo S5000x128 (shapeCast S5000x1 x1 shapeCasts_S5000x1_S5000x1) broadcasts_S5000x1_S5000x128))
        (broadcastTo S5000x128 (shapeCast S1x128 x2 shapeCasts_S128_S1x128) broadcasts_S1x128_S5000x128)) (broadcast S5000x128 (Scalar.ofBits (F := Ideal) .f32 0x00000000#32)) (ix2 p q)) = _
  rw [maximumf_apply, addf_apply, mulf_apply, shapeCast_self, shapeCast_self, Cert.LibKeepdims.broadcastTo_col_apply,
    Cert.KernelBody.broadcastTo_row_apply, Cert.KernelBody.shapeCast_row_apply, broadcast_apply]
  show max _ (Ideal.ofBits .f32 0x00000000#32) = _
  rw [Ideal.ofBits_zero_f32]
  rfl

/-- A block whose loaded pieces are rows b·5000 … of the arrays holds, at (p, q), the whole-array function at
    (b·5000 + p, q). -/
theorem block_eq (A0 : (⟨2, ![40000, 128]⟩ : Shape).Idx → EReal) (A1 : (⟨2, ![40000, 1]⟩ : Shape).Idx → EReal)
    (A2 : (⟨1, ![128]⟩ : Shape).Idx → EReal) (b : ℕ) (hb : b ≤ 7)
    (x0 : Vec Ideal S5000x128 .f32) (x1 : Vec Ideal S5000x1 .f32) (x2 : Vec Ideal S128 .f32)
    (h0 : ∀ (p : Fin 5000) (q : Fin 128), x0 (ix2 p q) = A0 (ix2 (⟨b * 5000 + p.val, by omega⟩ : Fin 40000) q))
    (h1 : ∀ p : Fin 5000, x1 (ix2 p (0 : Fin 1)) = A1 (ix2 (⟨b * 5000 + p.val, by omega⟩ : Fin 40000) (0 : Fin 1)))
    (h2 : ∀ q : Fin 128, x2 (ix1 q) = A2 (ix1 q))
    (p : Fin 5000) (q : Fin 128) :
    k1_pay1 (F := Ideal) x0 x1 x2 (ix2 p q) = biasArr true A0 A1 A2 (ix2 (⟨b * 5000 + p.val, by omega⟩ : Fin 40000) q) := by
  rw [pay_apply, h0 p q, h1 p, h2 q]
  rfl

/-- The printed index maps over the grid: the table's, the column's and the output's blocks move together along the
    rows, the bias stays, and there are 8 row blocks. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 1) = 0
    ∧ win1_3.index t (1 : Fin 2) = 0
    ∧ win1_3.index t (0 : Fin 2) ≤ 7 :=
  (by decide +kernel : ∀ t : Fin grid1.N, _)

/-- Every row block is some point's. -/
theorem idx_onto : ∀ q0 : Fin 8, ∃ t : Fin cfg1.N, win1_3.index t = ![q0.val, 0] :=
  (by decide +kernel : ∀ q0 : Fin 8, ∃ t : Fin grid1.N, win1_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg1.N) :
    (dat1 (F := Ideal) V c).flushed 3 t
      = ((cfg1.win 3).blk t).view.read (Elt Ideal) (biasArr true (V c main_v26) (V c main_v15) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hemb : ((cfg1.win 3).blk t).view.emb (ix2 p q)
      = ix2 (⟨win1_3.index t (0 : Fin 2) * 5000 + p.val, by omega⟩ : Fin 40000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  show k1_pay1 (iblk1 V c 0 t) (iblk1 V c 1 t) (iblk1 V c 2 t) (ix2 p q)
    = biasArr true (V c main_v26) (V c main_v15) (V c main_arg3) (((cfg1.win 3).blk t).view.emb (ix2 p q))
  rw [hemb]
  refine block_eq (V c main_v26) (V c main_v15) (V c main_arg3) (win1_3.index t (0 : Fin 2)) e6 _ _ _ ?_ ?_ ?_ p q
  · intro p q
    show V c main_v26 (((cfg1.win 0).blk t).view.emb (ix2 p q)) = _
    refine congrArg _ (funext fun a => Fin.ext ?_)
    match a with
    | ⟨0, _⟩ => show win1_0.index t (0 : Fin 2) * 5000 + 1 * p.val = win1_3.index t (0 : Fin 2) * 5000 + p.val; omega
    | ⟨1, _⟩ => show win1_0.index t (1 : Fin 2) * 128 + 1 * q.val = q.val; omega
  · intro p
    show V c main_v15 (((cfg1.win 1).blk t).view.emb (ix2 p (0 : Fin 1))) = _
    refine congrArg _ (funext fun a => Fin.ext ?_)
    match a with
    | ⟨0, _⟩ => show win1_1.index t (0 : Fin 2) * 5000 + 1 * p.val = win1_3.index t (0 : Fin 2) * 5000 + p.val; omega
    | ⟨1, _⟩ => show win1_1.index t (1 : Fin 2) * 1 + 1 * (0 : Fin 1).val = (0 : Fin 1).val; omega
  · intro q
    show V c main_arg3 (((cfg1.win 2).blk t).view.emb (ix1 q)) = _
    refine congrArg _ (funext fun a => Fin.ext ?_)
    match a with
    | ⟨0, _⟩ => show win1_2.index t (0 : Fin 1) * 128 + 1 * q.val = q.val; omega

/-- An index of the output array is in point `t`'s block iff each coordinate is in the block's range on its axis. -/
theorem mem_blk (t : Fin cfg1.N) (i : S40000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- Every index of the output array is in some point's block: row n is in block n / 5000. -/
theorem cover (i : S40000x128.Idx) :
    ∃ t : Fin cfg1.N, (cfg1.win 3).flush t = true ∧ i ∈ ((cfg1.win 3).blk t).view.set := by
  have hi0 : (i 0).val < 40000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the region leaves: the scaled, biased, clipped table of the arrays it finds. -/
theorem final (c : Dev nD) :
    (dat1 (F := Ideal) V c).arrAt 3 cfg1.N = biasArr true (V c main_v26) (V c main_v15) (V c main_arg3) :=
  (dat1 (F := Ideal) V c).arrAt_eq_of_cover 3 _ (fun t _ => flushed_eq V c t) cover

end

end Cert.KernelIdeal.Region1

end
-- ==== Proof.Region2.lean ====
/-
  Region 2 of the kernel's program: a block of 5000 rows of a node table [40000, 128] is multiplied by a weight matrix
  [128, 128] and each row is scaled by that row's entry of a column [40000, 1].  Point `t` of the grid of 8 works on rows
  5000·t … 5000·t + 4999, the weight matrix is the same block at every point, and the 8 output blocks tile the output
  array.  So the array the region leaves is ONE function of the three arrays it finds: entry (n, c) is the product's
  entry (n, c) times the column's entry (n, 0).
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the row-by-column product of the loaded blocks times the column block's entry
    (p, 0).  Rounding the operands to bf16 changes nothing over the extended reals. -/
theorem pay_apply (x0 : Vec Ideal S5000x128 .f32) (x1 : Vec Ideal S128x128 .f32) (x2 : Vec Ideal S5000x1 .f32)
    (p : Fin 5000) (q : Fin 128) :
    k2_pay1 (F := Ideal) x0 x1 x2 (ix2 p q) = (∑ k : Fin 128, x0 (ix2 p k) * x1 (ix2 k q)) * x2 (ix2 p (0 : Fin 1)) := by
  show (matmul (F := Ideal) dot_S5000x128_S128x128_S5000x128_1_0_0_1_n_n none (truncf (F := Ideal) .bf16 (shapeCast S5000x128 x0 shapeCasts_S5000x128_S5000x128) bitsLt_bf16_f32) (truncf (F := Ideal) .bf16 x1 bitsLt_bf16_f32)
      (constant (F := Ideal) S5000x128 .f32 0x00000000#32) (ix2 p q))
    * (broadcastTo S5000x128 (shapeCast S5000x1 x2 shapeCasts_S5000x1_S5000x1) broadcasts_S5000x1_S5000x128 (ix2 p q)) = _
  rw [Cert.LibKeepdims.broadcastTo_col_apply, shapeCast_self, shapeCast_self]
  exact congrArg (· * x2 (ix2 p (0 : Fin 1)))
    (Cert.KernelBody.matmul_plain_zero_apply dot_S5000x128_S128x128_S5000x128_1_0_0_1_n_n_wf none _ _ p q)

/-- A block whose loaded pieces are rows b·5000 … of the arrays holds, at (p, q), the whole-array function at
    (b·5000 + p, q). -/
theorem block_eq (A0 : (⟨2, ![40000, 128]⟩ : Shape).Idx → EReal) (A1 : (⟨2, ![128, 128]⟩ : Shape).Idx → EReal)
    (A2 : (⟨2, ![40000, 1]⟩ : Shape).Idx → EReal) (b : ℕ) (hb : b ≤ 7)
    (x0 : Vec Ideal S5000x128 .f32) (x1 : Vec Ideal S128x128 .f32) (x2 : Vec Ideal S5000x1 .f32)
    (h0 : ∀ (p : Fin 5000) (k : Fin 128), x0 (ix2 p k) = A0 (ix2 (⟨b * 5000 + p.val, by omega⟩ : Fin 40000) k))
    (h1 : ∀ (k : Fin 128) (q : Fin 128), x1 (ix2 k q) = A1 (ix2 k q))
    (h2 : ∀ p : Fin 5000, x2 (ix2 p (0 : Fin 1)) = A2 (ix2 (⟨b * 5000 + p.val, by omega⟩ : Fin 40000) (0 : Fin 1)))
    (p : Fin 5000) (q : Fin 128) :
    k2_pay1 (F := Ideal) x0 x1 x2 (ix2 p q) = scaledArr A0 A1 A2 (ix2 (⟨b * 5000 + p.val, by omega⟩ : Fin 40000) q) := by
  rw [pay_apply, h2 p]
  show _ = mm A0 A1 _ q * A2 _
  refine congrArg (· * A2 (ix2 (⟨b * 5000 + p.val, by omega⟩ : Fin 40000) (0 : Fin 1))) ?_
  exact Finset.sum_congr rfl fun k _ => by rw [h0 p k, h1 k q]

/-- The printed index maps over the grid: the table's, the column's and the output's blocks move together along the
    rows, the weight matrix stays, and there are 8 row blocks. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 7 :=
  (by decide +kernel : ∀ t : Fin grid2.N, _)

/-- Every row block is some point's. -/
theorem idx_onto : ∀ q0 : Fin 8, ∃ t : Fin cfg2.N, win2_3.index t = ![q0.val, 0] :=
  (by decide +kernel : ∀ q0 : Fin 8, ∃ t : Fin grid2.N, win2_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg2.N) :
    (dat2 (F := Ideal) V c).flushed 3 t
      = ((cfg2.win 3).blk t).view.read (Elt Ideal) (scaledArr (V c main_v27) (V c main_arg4) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hemb : ((cfg2.win 3).blk t).view.emb (ix2 p q)
      = ix2 (⟨win2_3.index t (0 : Fin 2) * 5000 + p.val, by omega⟩ : Fin 40000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega
  show k2_pay1 (iblk2 V c 0 t) (iblk2 V c 1 t) (iblk2 V c 2 t) (ix2 p q)
    = scaledArr (V c main_v27) (V c main_arg4) (V c main_v15) (((cfg2.win 3).blk t).view.emb (ix2 p q))
  rw [hemb]
  refine block_eq (V c main_v27) (V c main_arg4) (V c main_v15) (win2_3.index t (0 : Fin 2)) e7 _ _ _ ?_ ?_ ?_ p q
  · intro p k
    show V c main_v27 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  · intro k q
    show V c main_arg4 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · intro p
    show V c main_v15 (((cfg2.win 2).blk t).view.emb (ix2 p (0 : Fin 1))) = _
    refine congrArg _ (funext fun a => Fin.ext ?_)
    match a with
    | ⟨0, _⟩ => show win2_2.index t (0 : Fin 2) * 5000 + 1 * p.val = win2_3.index t (0 : Fin 2) * 5000 + p.val; omega
    | ⟨1, _⟩ => show win2_2.index t (1 : Fin 2) * 1 + 1 * (0 : Fin 1).val = (0 : Fin 1).val; omega

/-- An index of the output array is in point `t`'s block iff each coordinate is in the block's range on its axis. -/
theorem mem_blk (t : Fin cfg2.N) (i : S40000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v28).slice (win2_3.rect t)).set ↔ _
  rw [View.set_slice_whole, Rect.mem_set_unit]
  exact Iff.rfl

/-- Every index of the output array is in some point's block: row n is in block n / 5000. -/
theorem cover (i : S40000x128.Idx) :
    ∃ t : Fin cfg2.N, (cfg2.win 3).flush t = true ∧ i ∈ ((cfg2.win 3).blk t).view.set := by
  have hi0 : (i 0).val < 40000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY the region leaves: the scaled product of the arrays it finds. -/
theorem final (c : Dev nD) :
    (dat2 (F := Ideal) V c).arrAt 3 cfg2.N = scaledArr (V c main_v27) (V c main_arg4) (V c main_v15) :=
  (dat2 (F := Ideal) V c).arrAt_eq_of_cover 3 _ (fun t _ => flushed_eq V c t) cover

end

end Cert.KernelIdeal.Region2

end
-- ==== Proof.Region3.lean ====
/-
  Region 3 of the kernel's program: a block of 5000 rows of a collected table [40000, 128] is scaled row by row by a
  column [40000, 1], a bias row [128] is added, and the positive part is taken.  Point `t` of the grid of 8 works on rows
  5000·t … 5000·t + 4999, the bias is the same block at every point, and the 8 output blocks tile the output array.  So
  the array the region leaves is ONE function of the three arrays it finds: entry (n, c) is the positive part of the table's
  entry (n, c) times the column's entry (n, 0) plus the bias's entry c.
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

/-- The body's stored value at (p, q): the table block's entry times the column block's entry (p, 0), plus the bias's
    entry q, positive part. -/
theorem pay_apply (x0 : Vec Ideal S5000x128 .f32) (x1 : Vec Ideal S5000x1 .f32) (x2 : Vec Ideal S128 .f32)
    (p : Fin 5000) (q : Fin 128) :
    k3_pay1 (F := Ideal) x0 x1 x2 (ix2 p q) = act true (x0 (ix2 p q) * x1 (ix2 p (0 : Fin 1)) + x2 (ix1 q)) := by
  show (maximumf (F := Ideal) (addf (F := Ideal) (mulf (F := Ideal) (shapeCast S5000x128 x0 shapeCasts_S5000x128_S5000x128) (broadcastTo S5000x128 (shapeCast S5000x1 x1 shapeCasts_S5000x1_S5000x1) broadcasts_S5000x1_S5000x128))
        (broadcastTo S5000x128 (shapeCast S1x128 x2 shapeCasts_S128_S1x128) broadcasts_S1x128_S5000x128)) (broadcast S5000x128 (Scalar.ofBits (F := Ideal) .f32 0x00000000#32)) (ix2 p q)) = _
  rw [maximumf_apply, addf_apply, mulf_apply, shapeCast_self, shapeCast_self, Cert.LibKeepdims.broadcastTo_col_apply,
    Cert.KernelBody.broadcastTo_row_apply, Cert.KernelBody.shapeCast_row_apply, broadcast_apply]
  show max _ (Ideal.ofBits .f32 0x00000000#32) = _
  rw [Ideal.ofBits_zero_f32]
  rfl

/-- A block whose loaded pieces are rows b·5000 … of the arrays holds, at (p, q), the whole-array function at
    (b·5000 + p, q). -/
theorem block_eq (A0 : (⟨2, ![40000, 128]⟩ : Shape).Idx → EReal) (A1 : (⟨2, ![40000, 1]⟩ : Shape).Idx → EReal)
    (A2 : (⟨1, ![128]⟩ : Shape).Idx → EReal) (b : ℕ) (hb : b ≤ 7)
    (x0 : Vec Ideal S5000x128 .f32) (x1 : Vec Ideal S5000x1 .f32) (x2 : Vec Ideal S128 .f32)
    (h0 : ∀ (p : Fin 5000) (q : Fin 128), x0 (ix2 p q) = A0 (ix2 (⟨b * 5000 + p.val, by omega⟩ : Fin 40000) q))
    (h1 : ∀ p : Fin 5000, x1 (ix2 p (0 : Fin 1)) = A1 (ix2 (⟨b * 5000 + p.val, by omega⟩ : Fin 40000) (0 : Fin 1)))
    (h2 : ∀ q : Fin 128, x2 (ix1 q) = A2 (ix1 q))
    (p : Fin 5000) (q : Fin 128) :
    k3_pay1 (F := Ideal) x0 x1 x2 (ix2 p q) = biasArr true A0 A1 A2 (ix2 (⟨b * 5000 + p.val, by omega⟩ : Fin 40000) q) := by
  rw [pay_apply, h0 p q, h1 p, h2 q]
  rfl

/-- The printed index maps over the grid: the table's, the column's and the output's blocks move together along the
    rows, the bias stays, and there are 8 row blocks. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 1) = 0
    ∧ win3_3.index t (1 : Fin 2) = 0
    ∧ win3_3.index t (0 : Fin 2) ≤ 7 :=
  (by decide +kernel : ∀ t : Fin grid3.N, _)

/-- Every row block is some point's. -/
theorem idx_onto : ∀ q0 : Fin 8, ∃ t : Fin cfg3.N, win3_3.index t = ![q0.val, 0] :=
  (by decide +kernel : ∀ q0 : Fin 8, ∃ t : Fin grid3.N, win3_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg3.N) :
    (dat3 (F := Ideal) V c).flushed 3 t
      = ((cfg3.win 3).blk t).view.read (Elt Ideal) (biasArr true (V c main_v38) (V c main_v15) (V c main_arg5)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hemb : ((cfg3.win 3).blk t).view.emb (ix2 p q)
      = ix2 (⟨win3_3.index t (0 : Fin 2) * 5000 + p.val, by omega⟩ : Fin 40000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; omega
  show k3_pay1 (iblk3 V c 0 t) (iblk3 V c 1 t) (iblk3 V c 2 t) (ix2 p q)
    = biasArr true (V c main_v38) (V c main_v15) (V c main_arg5) (((cfg3.win 3).blk t).view.emb (ix2 p q))
  rw [hemb]
  refine block_eq (V c main_v38) (V c main_v15) (V c main_arg5) (win3_3.index t (0 : Fin 2)) e6 _ _ _ ?_ ?_ ?_ p q
  · intro p q
    show V c main_v38 (((cfg3.win 0).blk t).view.emb (ix2 p q)) = _
    refine congrArg _ (funext fun a => Fin.ext ?_)
    match a with
    | ⟨0, _⟩ => show win3_0.index t (0 : Fin 2) * 5000 + 1 * p.val = win3_3.index t (0 : Fin 2) * 5000 + p.val; omega
    | ⟨1, _⟩ => show win3_0.index t (1 : Fin 2) * 128 + 1 * q.val = q.val; omega
  · intro p
    show V c main_v15 (((cfg3.win 1).blk t).view.emb (ix2 p (0 : Fin 1))) = _
    refine congrArg _ (funext fun a => Fin.ext ?_)
    match a with
    | ⟨0, _⟩ => show win3_1.index t (0 : Fin 2) * 5000 + 1 * p.val = win3_3.index t (0 : Fin 2) * 5000 + p.val; omega
    | ⟨1, _⟩ => show win3_1.index t (1 : Fin 2) * 1 + 1 * (0 : Fin 1).val = (0 : Fin 1).val; omega
  · intro q
    show V c main_arg5 (((cfg3.win 2).blk t).view.emb (ix1 q)) = _
    refine congrArg _ (funext fun a => Fin.ext ?_)
    match a with
    | ⟨0, _⟩ => show win3_2.index t (0 : Fin 1) * 128 + 1 * q.val = q.val; omega

/-- An index of the output array is in point `t`'s block iff each coordinate is in the block's range on its axis. -/
theorem mem_blk (t : Fin cfg3.N) (i : S40000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v39).slice (win3_3.rect t)).set ↔ _
  rw [View.set_slice_whole, Rect.mem_set_unit]
  exact Iff.rfl

/-- Every index of the output array is in some point's block: row n is in block n / 5000. -/
theorem cover (i : S40000x128.Idx) :
    ∃ t : Fin cfg3.N, (cfg3.win 3).flush t = true ∧ i ∈ ((cfg3.win 3).blk t).view.set := by
  have hi0 : (i 0).val < 40000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY the region leaves: the scaled, biased, clipped table of the arrays it finds. -/
theorem final (c : Dev nD) :
    (dat3 (F := Ideal) V c).arrAt 3 cfg3.N = biasArr true (V c main_v38) (V c main_v15) (V c main_arg5) :=
  (dat3 (F := Ideal) V c).arrAt_eq_of_cover 3 _ (fun t _ => flushed_eq V c t) cover

end

end Cert.KernelIdeal.Region3

end
-- ==== Proof.Region4.lean ====
/-
  Region 4 of the kernel's program: a block of 5000 rows of a node table [40000, 128] is multiplied by a weight matrix
  [128, 64] and each row is scaled by that row's entry of a column [40000, 1].  Point `t` of the grid of 8 works on rows
  5000·t … 5000·t + 4999, the weight matrix is the same block at every point, and the 8 output blocks tile the output
  array.  So the array the region leaves is ONE function of the three arrays it finds: entry (n, c) is the product's
  entry (n, c) times the column's entry (n, 0).
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the row-by-column product of the loaded blocks times the column block's entry
    (p, 0).  Rounding the operands to bf16 changes nothing over the extended reals. -/
theorem pay_apply (x0 : Vec Ideal S5000x128 .f32) (x1 : Vec Ideal S128x64 .f32) (x2 : Vec Ideal S5000x1 .f32)
    (p : Fin 5000) (q : Fin 64) :
    k4_pay1 (F := Ideal) x0 x1 x2 (ix2 p q) = (∑ k : Fin 128, x0 (ix2 p k) * x1 (ix2 k q)) * x2 (ix2 p (0 : Fin 1)) := by
  show (matmul (F := Ideal) dot_S5000x128_S128x64_S5000x64_1_0_0_1_n_n none (truncf (F := Ideal) .bf16 (shapeCast S5000x128 x0 shapeCasts_S5000x128_S5000x128) bitsLt_bf16_f32) (truncf (F := Ideal) .bf16 x1 bitsLt_bf16_f32)
      (constant (F := Ideal) S5000x64 .f32 0x00000000#32) (ix2 p q))
    * (broadcastTo S5000x64 (shapeCast S5000x1 x2 shapeCasts_S5000x1_S5000x1) broadcasts_S5000x1_S5000x64 (ix2 p q)) = _
  rw [Cert.LibKeepdims.broadcastTo_col_apply, shapeCast_self, shapeCast_self]
  exact congrArg (· * x2 (ix2 p (0 : Fin 1)))
    (Cert.KernelBody.matmul_plain_zero_apply dot_S5000x128_S128x64_S5000x64_1_0_0_1_n_n_wf none _ _ p q)

/-- A block whose loaded pieces are rows b·5000 … of the arrays holds, at (p, q), the whole-array function at
    (b·5000 + p, q). -/
theorem block_eq (A0 : (⟨2, ![40000, 128]⟩ : Shape).Idx → EReal) (A1 : (⟨2, ![128, 64]⟩ : Shape).Idx → EReal)
    (A2 : (⟨2, ![40000, 1]⟩ : Shape).Idx → EReal) (b : ℕ) (hb : b ≤ 7)
    (x0 : Vec Ideal S5000x128 .f32) (x1 : Vec Ideal S128x64 .f32) (x2 : Vec Ideal S5000x1 .f32)
    (h0 : ∀ (p : Fin 5000) (k : Fin 128), x0 (ix2 p k) = A0 (ix2 (⟨b * 5000 + p.val, by omega⟩ : Fin 40000) k))
    (h1 : ∀ (k : Fin 128) (q : Fin 64), x1 (ix2 k q) = A1 (ix2 k q))
    (h2 : ∀ p : Fin 5000, x2 (ix2 p (0 : Fin 1)) = A2 (ix2 (⟨b * 5000 + p.val, by omega⟩ : Fin 40000) (0 : Fin 1)))
    (p : Fin 5000) (q : Fin 64) :
    k4_pay1 (F := Ideal) x0 x1 x2 (ix2 p q) = scaledArr A0 A1 A2 (ix2 (⟨b * 5000 + p.val, by omega⟩ : Fin 40000) q) := by
  rw [pay_apply, h2 p]
  show _ = mm A0 A1 _ q * A2 _
  refine congrArg (· * A2 (ix2 (⟨b * 5000 + p.val, by omega⟩ : Fin 40000) (0 : Fin 1))) ?_
  exact Finset.sum_congr rfl fun k _ => by rw [h0 p k, h1 k q]

/-- The printed index maps over the grid: the table's, the column's and the output's blocks move together along the
    rows, the weight matrix stays, and there are 8 row blocks. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = win4_3.index t (0 : Fin 2)
    ∧ win4_2.index t (1 : Fin 2) = 0
    ∧ win4_3.index t (1 : Fin 2) = 0
    ∧ win4_3.index t (0 : Fin 2) ≤ 7 :=
  (by decide +kernel : ∀ t : Fin grid4.N, _)

/-- Every row block is some point's. -/
theorem idx_onto : ∀ q0 : Fin 8, ∃ t : Fin cfg4.N, win4_3.index t = ![q0.val, 0] :=
  (by decide +kernel : ∀ q0 : Fin 8, ∃ t : Fin grid4.N, win4_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg4.N) :
    (dat4 (F := Ideal) V c).flushed 3 t
      = ((cfg4.win 3).blk t).view.read (Elt Ideal) (scaledArr (V c main_v39) (V c main_arg6) (V c main_v15)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S5000x1) hz, View.ld_unit_zero (S := S5000x64) hz]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  have hemb : ((cfg4.win 3).blk t).view.emb (ix2 p q)
      = ix2 (⟨win4_3.index t (0 : Fin 2) * 5000 + p.val, by omega⟩ : Fin 40000) q := by
    funext a; apply Fin.ext
    match a with
    | ⟨0, _⟩ => show win4_3.index t (0 : Fin 2) * 5000 + 1 * p.val = win4_3.index t (0 : Fin 2) * 5000 + p.val; omega
    | ⟨1, _⟩ => show win4_3.index t (1 : Fin 2) * 64 + 1 * q.val = q.val; omega
  show k4_pay1 (iblk4 V c 0 t) (iblk4 V c 1 t) (iblk4 V c 2 t) (ix2 p q)
    = scaledArr (V c main_v39) (V c main_arg6) (V c main_v15) (((cfg4.win 3).blk t).view.emb (ix2 p q))
  rw [hemb]
  refine block_eq (V c main_v39) (V c main_arg6) (V c main_v15) (win4_3.index t (0 : Fin 2)) e7 _ _ _ ?_ ?_ ?_ p q
  · intro p k
    show V c main_v39 (((cfg4.win 0).blk t).view.emb (ix2 p k)) = _
    refine congrArg _ (funext fun a => Fin.ext ?_)
    match a with
    | ⟨0, _⟩ => show win4_0.index t (0 : Fin 2) * 5000 + 1 * p.val = win4_3.index t (0 : Fin 2) * 5000 + p.val; omega
    | ⟨1, _⟩ => show win4_0.index t (1 : Fin 2) * 128 + 1 * k.val = k.val; omega
  · intro k q
    show V c main_arg6 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = q.val; omega
  · intro p
    show V c main_v15 (((cfg4.win 2).blk t).view.emb (ix2 p (0 : Fin 1))) = _
    refine congrArg _ (funext fun a => Fin.ext ?_)
    match a with
    | ⟨0, _⟩ => show win4_2.index t (0 : Fin 2) * 5000 + 1 * p.val = win4_3.index t (0 : Fin 2) * 5000 + p.val; omega
    | ⟨1, _⟩ => show win4_2.index t (1 : Fin 2) * 1 + 1 * (0 : Fin 1).val = (0 : Fin 1).val; omega

/-- An index of the output array is in point `t`'s block iff each coordinate is in the block's range on its axis. -/
theorem mem_blk (t : Fin cfg4.N) (i : S40000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v40).slice (win4_3.rect t)).set ↔ _
  rw [View.set_slice_whole, Rect.mem_set_unit]
  exact Iff.rfl

/-- Every index of the output array is in some point's block: row n is in block n / 5000. -/
theorem cover (i : S40000x64.Idx) :
    ∃ t : Fin cfg4.N, (cfg4.win 3).flush t = true ∧ i ∈ ((cfg4.win 3).blk t).view.set := by
  have hi0 : (i 0).val < 40000 := (i 0).isLt
  have hi1 : (i 1).val < 64 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE ARRAY the region leaves: the scaled product of the arrays it finds. -/
theorem final (c : Dev nD) :
    (dat4 (F := Ideal) V c).arrAt 3 cfg4.N = scaledArr (V c main_v39) (V c main_arg6) (V c main_v15) :=
  (dat4 (F := Ideal) V c).arrAt_eq_of_cover 3 _ (fun t _ => flushed_eq V c t) cover

end

end Cert.KernelIdeal.Region4

end
-- ==== Proof.Region5.lean ====
/-
  Region 5 of the kernel's program: a block of 5000 rows of a collected table [40000, 64] is scaled row by row by a
  column [40000, 1], a bias row [64] is added.  Point `t` of the grid of 8 works on rows
  5000·t … 5000·t + 4999, the bias is the same block at every point, and the 8 output blocks tile the output array.  So
  the array the region leaves is ONE function of the three arrays it finds: entry (n, c) is the table's
  entry (n, c) times the column's entry (n, 0) plus the bias's entry c.
-/
import proofs.«104596_j70145405878899_2_alg».proof.Proof.Gen.KernelIdeal.Frame
import proofs.«104596_j70145405878899_2_alg».proof.Proof.Spec
import proofs.«104596_j70145405878899_2_alg».proof.Proof.LibKeepdims
import proofs.«104596_j70145405878899_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

/-- The body's stored value at (p, q): the table block's entry times the column block's entry (p, 0), plus the bias's
    entry q. -/
theorem pay_apply (x0 : Vec Ideal S5000x64 .f32) (x1 : Vec Ideal S5000x1 .f32) (x2 : Vec Ideal S64 .f32)
    (p : Fin 5000) (q : Fin 64) :
    k5_pay1 (F := Ideal) x0 x1 x2 (ix2 p q) = act false (x0 (ix2 p q) * x1 (ix2 p (0 : Fin 1)) + x2 (ix1 q)) := by
  show (addf (F := Ideal) (mulf (F := Ideal) (shapeCast S5000x64 x0 shapeCasts_S5000x64_S5000x64) (broadcastTo S5000x64 (shapeCast S5000x1 x1 shapeCasts_S5000x1_S5000x1) broadcasts_S5000x1_S5000x64))
        (broadcastTo S5000x64 (shapeCast S1x64 x2 shapeCasts_S64_S1x64) broadcasts_S1x64_S5000x64) (ix2 p q)) = _
  rw [addf_apply, mulf_apply, shapeCast_self, shapeCast_self, Cert.LibKeepdims.broadcastTo_col_apply,
    Cert.KernelBody.broadcastTo_row_apply, Cert.KernelBody.shapeCast_row_apply]
  rfl

/-- A block whose loaded pieces are rows b·5000 … of the arrays holds, at (p, q), the whole-array function at
    (b·5000 + p, q). -/
theorem block_eq (A0 : (⟨2, ![40000, 64]⟩ : Shape).Idx → EReal) (A1 : (⟨2, ![40000, 1]⟩ : Shape).Idx → EReal)
    (A2 : (⟨1, ![64]⟩ : Shape).Idx → EReal) (b : ℕ) (hb : b ≤ 7)
    (x0 : Vec Ideal S5000x64 .f32) (x1 : Vec Ideal S5000x1 .f32) (x2 : Vec Ideal S64 .f32)
    (h0 : ∀ (p : Fin 5000) (q : Fin 64), x0 (ix2 p q) = A0 (ix2 (⟨b * 5000 + p.val, by omega⟩ : Fin 40000) q))
    (h1 : ∀ p : Fin 5000, x1 (ix2 p (0 : Fin 1)) = A1 (ix2 (⟨b * 5000 + p.val, by omega⟩ : Fin 40000) (0 : Fin 1)))
    (h2 : ∀ q : Fin 64, x2 (ix1 q) = A2 (ix1 q))
    (p : Fin 5000) (q : Fin 64) :
    k5_pay1 (F := Ideal) x0 x1 x2 (ix2 p q) = biasArr false A0 A1 A2 (ix2 (⟨b * 5000 + p.val, by omega⟩ : Fin 40000) q) := by
  rw [pay_apply, h0 p q, h1 p, h2 q]
  rfl

/-- The printed index maps over the grid: the table's, the column's and the output's blocks move together along the
    rows, the bias stays, and there are 8 row blocks. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 1) = 0
    ∧ win5_3.index t (1 : Fin 2) = 0
    ∧ win5_3.index t (0 : Fin 2) ≤ 7 :=
  (by decide +kernel : ∀ t : Fin grid5.N, _)

/-- Every row block is some point's. -/
theorem idx_onto : ∀ q0 : Fin 8, ∃ t : Fin cfg5.N, win5_3.index t = ![q0.val, 0] :=
  (by decide +kernel : ∀ q0 : Fin 8, ∃ t : Fin grid5.N, win5_3.index t = ![q0.val, 0])

section
variable (V : (c : Dev nD) → (b : Ref sig .tc) → Buf (Elt Ideal) ((c : Thread nD τ).loc b))

/-- What point `t` writes back is block `t` of the whole-array function of the arrays the region finds. -/
theorem flushed_eq (c : Dev nD) (t : Fin cfg5.N) :
    (dat5 (F := Ideal) V c).flushed 3 t
      = ((cfg5.win 3).blk t).view.read (Elt Ideal) (biasArr false (V c main_v50) (V c main_v15) (V c main_arg7)) := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x1) hz, View.ld_unit_zero (S := S64) hz1]
  obtain ⟨e0, e1, e2, e3, e4, e5, e6⟩ := idx_facts t
  funext j
  obtain ⟨p, q, rfl⟩ : ∃ (p : Fin 5000) (q : Fin 64), j = ix2 p q := ⟨j 0, j 1, eq_ix2 j⟩
  have hemb : ((cfg5.win 3).blk t).view.emb (ix2 p q)
      = ix2 (⟨win5_3.index t (0 : Fin 2) * 5000 + p.val, by omega⟩ : Fin 40000) q := by
    funext a; apply Fin.ext
    match a with
    | ⟨0, _⟩ => show win5_3.index t (0 : Fin 2) * 5000 + 1 * p.val = win5_3.index t (0 : Fin 2) * 5000 + p.val; omega
    | ⟨1, _⟩ => show win5_3.index t (1 : Fin 2) * 64 + 1 * q.val = q.val; omega
  show k5_pay1 (iblk5 V c 0 t) (iblk5 V c 1 t) (iblk5 V c 2 t) (ix2 p q)
    = biasArr false (V c main_v50) (V c main_v15) (V c main_arg7) (((cfg5.win 3).blk t).view.emb (ix2 p q))
  rw [hemb]
  refine block_eq (V c main_v50) (V c main_v15) (V c main_arg7) (win5_3.index t (0 : Fin 2)) e6 _ _ _ ?_ ?_ ?_ p q
  · intro p q
    show V c main_v50 (((cfg5.win 0).blk t).view.emb (ix2 p q)) = _
    refine congrArg _ (funext fun a => Fin.ext ?_)
    match a with
    | ⟨0, _⟩ => show win5_0.index t (0 : Fin 2) * 5000 + 1 * p.val = win5_3.index t (0 : Fin 2) * 5000 + p.val; omega
    | ⟨1, _⟩ => show win5_0.index t (1 : Fin 2) * 64 + 1 * q.val = q.val; omega
  · intro p
    show V c main_v15 (((cfg5.win 1).blk t).view.emb (ix2 p (0 : Fin 1))) = _
    refine congrArg _ (funext fun a => Fin.ext ?_)
    match a with
    | ⟨0, _⟩ => show win5_1.index t (0 : Fin 2) * 5000 + 1 * p.val = win5_3.index t (0 : Fin 2) * 5000 + p.val; omega
    | ⟨1, _⟩ => show win5_1.index t (1 : Fin 2) * 1 + 1 * (0 : Fin 1).val = (0 : Fin 1).val; omega
  · intro q
    show V c main_arg7 (((cfg5.win 2).blk t).view.emb (ix1 q)) = _
    refine congrArg _ (funext fun a => Fin.ext ?_)
    match a with
    | ⟨0, _⟩ => show win5_2.index t (0 : Fin 1) * 64 + 1 * q.val = q.val; omega

/-- An index of the output array is in point `t`'s block iff each coordinate is in the block's range on its axis. -/
theorem mem_blk (t : Fin cfg5.N) (i : S40000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v51).slice (win5_3.rect t)).set ↔ _
  rw [View.set_slice_whole, Rect.mem_set_unit]
  exact Iff.rfl

/-- Every index of the output array is in some point's block: row n is in block n / 5000. -/
theorem cover (i : S40000x64.Idx) :
    ∃ t : Fin cfg5.N, (cfg5.win 3).flush t = true ∧ i ∈ ((cfg5.win 3).blk t).view.set := by
  have hi0 : (i 0).val < 40000 := (i 0).isLt
  have hi1 : (i 1).val < 64 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- THE ARRAY the region leaves: the scaled, biased table of the arrays it finds. -/
theorem final (c : Dev nD) :
    (dat5 (F := Ideal) V c).arrAt 3 cfg5.N = biasArr false (V c main_v50) (V c main_v15) (V c main_arg7) :=
  (dat5 (F := Ideal) V c).arrAt_eq_of_cover 3 _ (fun t _ => flushed_eq V c t) cover

end

end Cert.KernelIdeal.Region5

end
-- ==== Proof.KWalk.lean ====
/-
  The kernel's program from its first region to its last, boundary by boundary.  At each boundary between segments the
  buffers that later segments read are named: the two index arrays, the scale column and the remaining arguments pass
  through unchanged (a region rewrites only its own output array, a host stretch only its own results), each region's
  output array is the whole-array function of the arrays it found, and each host stretch between regions gathers the
  scaled table's rows by source index and scatter-adds them by destination index into zeros.  Composed, the result
  array is three layers, each in the arrangement "scale, collect, scale, add the bias".
-/
import proofs.«104596_j70145405878899_2_alg».proof.Proof.Gen.KernelIdeal.Frame
import proofs.«104596_j70145405878899_2_alg».proof.Proof.KPrefix
import proofs.«104596_j70145405878899_2_alg».proof.Proof.HostAgg
import proofs.«104596_j70145405878899_2_alg».proof.Proof.Region0
import proofs.«104596_j70145405878899_2_alg».proof.Proof.Region1
import proofs.«104596_j70145405878899_2_alg».proof.Proof.Region2
import proofs.«104596_j70145405878899_2_alg».proof.Proof.Region3
import proofs.«104596_j70145405878899_2_alg».proof.Proof.Region4
import proofs.«104596_j70145405878899_2_alg».proof.Proof.Region5

set_option maxRecDepth 16384

noncomputable section

namespace Cert.KernelIdeal.Walk

open Cert.KernelIdeal Cert.KernelIdeal.Gen Cert.GcnSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The source-row index array, the destination index array, the scale column. -/
abbrev RW : (⟨S680000, .i32⟩ : BufTy).Contents (Elt Ideal) := Cert.ReferenceIdeal.Read.val_main_v3 (F := Ideal) (m ((c : Thread nD τ).loc main_arg1))
abbrev CW : (⟨S680000, .i32⟩ : BufTy).Contents (Elt Ideal) := Cert.ReferenceIdeal.Read.val_main_v6 (F := Ideal) (m ((c : Thread nD τ).loc main_arg1))
abbrev DC : (⟨S40000x1, .f32⟩ : BufTy).Contents (Elt Ideal) := dcolOf (m ((c : Thread nD τ).loc main_arg1))

/-- A negative row index wraps once around the table before the gather clamps it. -/
def selOf (v : (⟨S680000, .i32⟩ : BufTy).Contents (Elt Ideal)) : (⟨S680000, .i32⟩ : BufTy).Contents (Elt Ideal) :=
  select (cmpi .slt v (broadcastInDim S680000 ![] bcast_S_S680000 (constantI S_ 32 0#32)))
    (addi v (broadcastInDim S680000 ![] bcast_S_S680000 (constantI S_ 32 40000#32))) v

/-- Each edge's destination word and clamped source row. -/
def cwF : Fin 680000 → BitVec 32 := colWord (broadcastInDim S680000x1 ![0] bcast_S680000_S680000x1_0 (CW m c))
def rF : Fin 680000 → Fin 40000 := rowPos (broadcastInDim S680000x1 ![0] bcast_S680000_S680000x1_0 (selOf (RW m c)))

/-- A broadcast of the zero constant is zero everywhere. -/
theorem bcast_zero_apply {s : Shape} (h : S_.BroadcastsInDim s ![]) (i : s.Idx) :
    broadcastInDim s ![] h (constant (F := Ideal) S_ .f32 0x00000000#32) i = 0 :=
  (broadcastInDim_apply _ h _ i (fun a => a.elim0) (fun a => a.elim0)).trans Ideal.ofBits_zero_f32

/-- The three layers' tables. -/
def T16 : (⟨S40000x128, .f32⟩ : BufTy).Contents (Elt Ideal) := scaledArr (m ((c : Thread nD τ).loc main_arg0)) (m ((c : Thread nD τ).loc main_arg2)) (DC m c)
def T26 : (⟨S40000x128, .f32⟩ : BufTy).Contents (Elt Ideal) := aggArr (cwF m c) (rF m c) (T16 m c)
def T27 : (⟨S40000x128, .f32⟩ : BufTy).Contents (Elt Ideal) := biasArr true (T26 m c) (DC m c) (m ((c : Thread nD τ).loc main_arg3))
def T28 : (⟨S40000x128, .f32⟩ : BufTy).Contents (Elt Ideal) := scaledArr (T27 m c) (m ((c : Thread nD τ).loc main_arg4)) (DC m c)
def T38 : (⟨S40000x128, .f32⟩ : BufTy).Contents (Elt Ideal) := aggArr (cwF m c) (rF m c) (T28 m c)
def T39 : (⟨S40000x128, .f32⟩ : BufTy).Contents (Elt Ideal) := biasArr true (T38 m c) (DC m c) (m ((c : Thread nD τ).loc main_arg5))
def T40 : (⟨S40000x64, .f32⟩ : BufTy).Contents (Elt Ideal) := scaledArr (T39 m c) (m ((c : Thread nD τ).loc main_arg6)) (DC m c)
def T50 : (⟨S40000x64, .f32⟩ : BufTy).Contents (Elt Ideal) := aggArr (cwF m c) (rF m c) (T40 m c)
def T51 : (⟨S40000x64, .f32⟩ : BufTy).Contents (Elt Ideal) := biasArr false (T50 m c) (DC m c) (m ((c : Thread nD τ).loc main_arg7))

/-! ## Boundary 4: after region 0 -/

theorem W4_v3 : W4 m ρ c (Proc.devRef .tc main_v3) = RW m c :=
  (W4_of_ne m ρ c main_v3 (by decide)).trans (W3_v3 m ρ c)

theorem W4_v6 : W4 m ρ c (Proc.devRef .tc main_v6) = CW m c :=
  (W4_of_ne m ρ c main_v6 (by decide)).trans (W3_v6 m ρ c)

theorem W4_v15 : W4 m ρ c (Proc.devRef .tc main_v15) = DC m c :=
  (W4_arr m ρ c 2).trans (((dat0 (V3 m ρ) c).arrAt_in 2 rfl _).trans ((A_eq0 (V3 m ρ) c 2).trans (W3_v15 m ρ c)))

theorem W4_arg3 : W4 m ρ c (Proc.devRef .tc main_arg3) = (m ((c : Thread nD τ).loc main_arg3)) :=
  (W4_of_ne m ρ c main_arg3 (by decide)).trans (W3_arg3 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

theorem W4_v16 : W4 m ρ c (Proc.devRef .tc main_v16) = T16 m c := by
  refine (W4_arr m ρ c 3).trans ((Region0.final (V3 m ρ) c).trans ?_)
  show scaledArr (W3 m ρ c (Proc.devRef .tc main_arg0)) (W3 m ρ c (Proc.devRef .tc main_arg2)) (W3 m ρ c (Proc.devRef .tc main_v15)) = _
  rw [W3_arg0, W3_arg2, W3_v15]
  rfl

/-! ## Boundary 5: after the host stretch hostOps1 -/

theorem W5_v3 : W5 m ρ c (Proc.devRef .tc main_v3) = RW m c :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v3 m ρ c)

theorem W5_v6 : W5 m ρ c (Proc.devRef .tc main_v6) = CW m c :=
  (StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v6 m ρ c)

theorem W5_v15 : W5 m ρ c (Proc.devRef .tc main_v15) = DC m c :=
  (StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v15 m ρ c)

theorem W5_arg3 : W5 m ρ c (Proc.devRef .tc main_arg3) = (m ((c : Thread nD τ).loc main_arg3)) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg3 m ρ c)

theorem W5_arg4 : W5 m ρ c (Proc.devRef .tc main_arg4) = (m ((c : Thread nD τ).loc main_arg4)) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg4 m ρ c)

theorem W5_arg5 : W5 m ρ c (Proc.devRef .tc main_arg5) = (m ((c : Thread nD τ).loc main_arg5)) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg5 m ρ c)

theorem W5_arg6 : W5 m ρ c (Proc.devRef .tc main_arg6) = (m ((c : Thread nD τ).loc main_arg6)) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg6 m ρ c)

theorem W5_arg7 : W5 m ρ c (Proc.devRef .tc main_arg7) = (m ((c : Thread nD τ).loc main_arg7)) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_arg7 m ρ c)

set_option maxHeartbeats 1000000 in
theorem W5_v26 : W5 m ρ c (Proc.devRef .tc main_v26) = T26 m c := by
  have e : W5 m ρ c (Proc.devRef .tc main_v26)
      = Host.scatterAdd scatter_S40000x128_S680000x1_S680000x128_1_0_0_1 (broadcastInDim S40000x128 ![] bcast_S_S40000x128 (constant (F := Ideal) S_ .f32 0x00000000#32))
          (broadcastInDim S680000x1 ![0] bcast_S680000_S680000x1_0 (W4 m ρ c (Proc.devRef .tc main_v6)))
          (Host.gather gather_S40000x128_S680000x1_S680000x128_1_0_n_n_0_1_1128 (W4 m ρ c (Proc.devRef .tc main_v16))
            (broadcastInDim S680000x1 ![0] bcast_S680000_S680000x1_0 (selOf (W4 m ρ c (Proc.devRef .tc main_v3))))) := by
    show StableHlo.after hostOps1 (W4 m ρ c) (Proc.devRef .tc main_v26) = _
    after_results
    rfl
  refine e.trans ?_
  rw [W4_v6, W4_v16, W4_v3]
  exact scatter_gather_eq scatter_S40000x128_S680000x1_S680000x128_1_0_0_1_wf gather_S40000x128_S680000x1_S680000x128_1_0_n_n_0_1_1128_wf _ (fun i => bcast_zero_apply _ i) _ _ _

/-! ## Boundary 6: after region 1 -/

theorem W6_v3 : W6 m ρ c (Proc.devRef .tc main_v3) = RW m c :=
  (W6_of_ne m ρ c main_v3 (by decide)).trans (W5_v3 m ρ c)

theorem W6_v6 : W6 m ρ c (Proc.devRef .tc main_v6) = CW m c :=
  (W6_of_ne m ρ c main_v6 (by decide)).trans (W5_v6 m ρ c)

theorem W6_v15 : W6 m ρ c (Proc.devRef .tc main_v15) = DC m c :=
  (W6_arr m ρ c 1).trans (((dat1 (V5 m ρ) c).arrAt_in 1 rfl _).trans ((A_eq1 (V5 m ρ) c 1).trans (W5_v15 m ρ c)))

theorem W6_arg4 : W6 m ρ c (Proc.devRef .tc main_arg4) = (m ((c : Thread nD τ).loc main_arg4)) :=
  (W6_of_ne m ρ c main_arg4 (by decide)).trans (W5_arg4 m ρ c)

theorem W6_arg5 : W6 m ρ c (Proc.devRef .tc main_arg5) = (m ((c : Thread nD τ).loc main_arg5)) :=
  (W6_of_ne m ρ c main_arg5 (by decide)).trans (W5_arg5 m ρ c)

theorem W6_arg6 : W6 m ρ c (Proc.devRef .tc main_arg6) = (m ((c : Thread nD τ).loc main_arg6)) :=
  (W6_of_ne m ρ c main_arg6 (by decide)).trans (W5_arg6 m ρ c)

theorem W6_arg7 : W6 m ρ c (Proc.devRef .tc main_arg7) = (m ((c : Thread nD τ).loc main_arg7)) :=
  (W6_of_ne m ρ c main_arg7 (by decide)).trans (W5_arg7 m ρ c)

theorem W6_v27 : W6 m ρ c (Proc.devRef .tc main_v27) = T27 m c := by
  refine (W6_arr m ρ c 3).trans ((Region1.final (V5 m ρ) c).trans ?_)
  show biasArr true (W5 m ρ c (Proc.devRef .tc main_v26)) (W5 m ρ c (Proc.devRef .tc main_v15)) (W5 m ρ c (Proc.devRef .tc main_arg3)) = _
  rw [W5_v26, W5_v15, W5_arg3]
  rfl

/-! ## Boundary 7: after region 2 -/

theorem W7_v3 : W7 m ρ c (Proc.devRef .tc main_v3) = RW m c :=
  (W7_of_ne m ρ c main_v3 (by decide)).trans (W6_v3 m ρ c)

theorem W7_v6 : W7 m ρ c (Proc.devRef .tc main_v6) = CW m c :=
  (W7_of_ne m ρ c main_v6 (by decide)).trans (W6_v6 m ρ c)

theorem W7_v15 : W7 m ρ c (Proc.devRef .tc main_v15) = DC m c :=
  (W7_arr m ρ c 2).trans (((dat2 (V6 m ρ) c).arrAt_in 2 rfl _).trans ((A_eq2 (V6 m ρ) c 2).trans (W6_v15 m ρ c)))

theorem W7_arg5 : W7 m ρ c (Proc.devRef .tc main_arg5) = (m ((c : Thread nD τ).loc main_arg5)) :=
  (W7_of_ne m ρ c main_arg5 (by decide)).trans (W6_arg5 m ρ c)

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

theorem W7_v28 : W7 m ρ c (Proc.devRef .tc main_v28) = T28 m c := by
  refine (W7_arr m ρ c 3).trans ((Region2.final (V6 m ρ) c).trans ?_)
  show scaledArr (W6 m ρ c (Proc.devRef .tc main_v27)) (W6 m ρ c (Proc.devRef .tc main_arg4)) (W6 m ρ c (Proc.devRef .tc main_v15)) = _
  rw [W6_v27, W6_arg4, W6_v15]
  rfl

/-! ## Boundary 8: after the host stretch hostOps3 -/

theorem W8_v3 : W8 m ρ c (Proc.devRef .tc main_v3) = RW m c :=
  (StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_v3 m ρ c)

theorem W8_v6 : W8 m ρ c (Proc.devRef .tc main_v6) = CW m c :=
  (StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_v6 m ρ c)

theorem W8_v15 : W8 m ρ c (Proc.devRef .tc main_v15) = DC m c :=
  (StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_v15 m ρ c)

theorem W8_arg5 : W8 m ρ c (Proc.devRef .tc main_arg5) = (m ((c : Thread nD τ).loc main_arg5)) :=
  (StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_arg5 m ρ c)

theorem W8_arg6 : W8 m ρ c (Proc.devRef .tc main_arg6) = (m ((c : Thread nD τ).loc main_arg6)) :=
  (StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_arg6 m ρ c)

theorem W8_arg7 : W8 m ρ c (Proc.devRef .tc main_arg7) = (m ((c : Thread nD τ).loc main_arg7)) :=
  (StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W7_arg7 m ρ c)

set_option maxHeartbeats 1000000 in
theorem W8_v38 : W8 m ρ c (Proc.devRef .tc main_v38) = T38 m c := by
  have e : W8 m ρ c (Proc.devRef .tc main_v38)
      = Host.scatterAdd scatter_S40000x128_S680000x1_S680000x128_1_0_0_1 (broadcastInDim S40000x128 ![] bcast_S_S40000x128 (constant (F := Ideal) S_ .f32 0x00000000#32))
          (broadcastInDim S680000x1 ![0] bcast_S680000_S680000x1_0 (W7 m ρ c (Proc.devRef .tc main_v6)))
          (Host.gather gather_S40000x128_S680000x1_S680000x128_1_0_n_n_0_1_1128 (W7 m ρ c (Proc.devRef .tc main_v28))
            (broadcastInDim S680000x1 ![0] bcast_S680000_S680000x1_0 (selOf (W7 m ρ c (Proc.devRef .tc main_v3))))) := by
    show StableHlo.after hostOps3 (W7 m ρ c) (Proc.devRef .tc main_v38) = _
    after_results
    rfl
  refine e.trans ?_
  rw [W7_v6, W7_v28, W7_v3]
  exact scatter_gather_eq scatter_S40000x128_S680000x1_S680000x128_1_0_0_1_wf gather_S40000x128_S680000x1_S680000x128_1_0_n_n_0_1_1128_wf _ (fun i => bcast_zero_apply _ i) _ _ _

/-! ## Boundary 9: after region 3 -/

theorem W9_v3 : W9 m ρ c (Proc.devRef .tc main_v3) = RW m c :=
  (W9_of_ne m ρ c main_v3 (by decide)).trans (W8_v3 m ρ c)

theorem W9_v6 : W9 m ρ c (Proc.devRef .tc main_v6) = CW m c :=
  (W9_of_ne m ρ c main_v6 (by decide)).trans (W8_v6 m ρ c)

theorem W9_v15 : W9 m ρ c (Proc.devRef .tc main_v15) = DC m c :=
  (W9_arr m ρ c 1).trans (((dat3 (V8 m ρ) c).arrAt_in 1 rfl _).trans ((A_eq3 (V8 m ρ) c 1).trans (W8_v15 m ρ c)))

theorem W9_arg6 : W9 m ρ c (Proc.devRef .tc main_arg6) = (m ((c : Thread nD τ).loc main_arg6)) :=
  (W9_of_ne m ρ c main_arg6 (by decide)).trans (W8_arg6 m ρ c)

theorem W9_arg7 : W9 m ρ c (Proc.devRef .tc main_arg7) = (m ((c : Thread nD τ).loc main_arg7)) :=
  (W9_of_ne m ρ c main_arg7 (by decide)).trans (W8_arg7 m ρ c)

theorem W9_v39 : W9 m ρ c (Proc.devRef .tc main_v39) = T39 m c := by
  refine (W9_arr m ρ c 3).trans ((Region3.final (V8 m ρ) c).trans ?_)
  show biasArr true (W8 m ρ c (Proc.devRef .tc main_v38)) (W8 m ρ c (Proc.devRef .tc main_v15)) (W8 m ρ c (Proc.devRef .tc main_arg5)) = _
  rw [W8_v38, W8_v15, W8_arg5]
  rfl

/-! ## Boundary 10: after region 4 -/

theorem W10_v3 : W10 m ρ c (Proc.devRef .tc main_v3) = RW m c :=
  (W10_of_ne m ρ c main_v3 (by decide)).trans (W9_v3 m ρ c)

theorem W10_v6 : W10 m ρ c (Proc.devRef .tc main_v6) = CW m c :=
  (W10_of_ne m ρ c main_v6 (by decide)).trans (W9_v6 m ρ c)

theorem W10_v15 : W10 m ρ c (Proc.devRef .tc main_v15) = DC m c :=
  (W10_arr m ρ c 2).trans (((dat4 (V9 m ρ) c).arrAt_in 2 rfl _).trans ((A_eq4 (V9 m ρ) c 2).trans (W9_v15 m ρ c)))

theorem W10_arg7 : W10 m ρ c (Proc.devRef .tc main_arg7) = (m ((c : Thread nD τ).loc main_arg7)) :=
  (W10_of_ne m ρ c main_arg7 (by decide)).trans (W9_arg7 m ρ c)

theorem W10_v40 : W10 m ρ c (Proc.devRef .tc main_v40) = T40 m c := by
  refine (W10_arr m ρ c 3).trans ((Region4.final (V9 m ρ) c).trans ?_)
  show scaledArr (W9 m ρ c (Proc.devRef .tc main_v39)) (W9 m ρ c (Proc.devRef .tc main_arg6)) (W9 m ρ c (Proc.devRef .tc main_v15)) = _
  rw [W9_v39, W9_arg6, W9_v15]
  rfl

/-! ## Boundary 11: after the host stretch hostOps5 -/

theorem W11_v15 : W11 m ρ c (Proc.devRef .tc main_v15) = DC m c :=
  (StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W10_v15 m ρ c)

theorem W11_arg7 : W11 m ρ c (Proc.devRef .tc main_arg7) = (m ((c : Thread nD τ).loc main_arg7)) :=
  (StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W10_arg7 m ρ c)

set_option maxHeartbeats 1000000 in
theorem W11_v50 : W11 m ρ c (Proc.devRef .tc main_v50) = T50 m c := by
  have e : W11 m ρ c (Proc.devRef .tc main_v50)
      = Host.scatterAdd scatter_S40000x64_S680000x1_S680000x64_1_0_0_1 (broadcastInDim S40000x64 ![] bcast_S_S40000x64 (constant (F := Ideal) S_ .f32 0x00000000#32))
          (broadcastInDim S680000x1 ![0] bcast_S680000_S680000x1_0 (W10 m ρ c (Proc.devRef .tc main_v6)))
          (Host.gather gather_S40000x64_S680000x1_S680000x64_1_0_n_n_0_1_164 (W10 m ρ c (Proc.devRef .tc main_v40))
            (broadcastInDim S680000x1 ![0] bcast_S680000_S680000x1_0 (selOf (W10 m ρ c (Proc.devRef .tc main_v3))))) := by
    show StableHlo.after hostOps5 (W10 m ρ c) (Proc.devRef .tc main_v50) = _
    after_results
    rfl
  refine e.trans ?_
  rw [W10_v6, W10_v40, W10_v3]
  exact scatter_gather_eq scatter_S40000x64_S680000x1_S680000x64_1_0_0_1_wf gather_S40000x64_S680000x1_S680000x64_1_0_n_n_0_1_164_wf _ (fun i => bcast_zero_apply _ i) _ _ _

/-! ## Boundary 12: after region 5 -/

theorem W12_v51 : W12 m ρ c (Proc.devRef .tc main_v51) = T51 m c := by
  refine (W12_arr m ρ c 3).trans ((Region5.final (V11 m ρ) c).trans ?_)
  show biasArr false (W11 m ρ c (Proc.devRef .tc main_v50)) (W11 m ρ c (Proc.devRef .tc main_v15)) (W11 m ρ c (Proc.devRef .tc main_arg7)) = _
  rw [W11_v50, W11_v15, W11_arg7]
  rfl

/-! ## The result array -/

/-- The kernel's result array at the last boundary: three layers, each "scale, collect, scale, add the bias". -/
theorem W12_result : W12 m ρ c (Proc.devRef .tc main_v51)
    = layerK false (cwF m c) (rF m c) (DC m c)
        (layerK true (cwF m c) (rF m c) (DC m c)
          (layerK true (cwF m c) (rF m c) (DC m c) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)) :=
  W12_v51 m ρ c

end Cert.KernelIdeal.Walk

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.RefLayer.lean ====
/-
  One layer of the reference, read at an index.

  The reference forms, for every edge `e`, the weight `d (a e) · d (b e)` from the scale vector gathered at two index
  columns, broadcasts it along the feature axis, multiplies the gathered table row by it, scatter-adds the rows by
  destination into zeros, and adds the bias broadcast down the rows.  Read at (n, c) this is the sum, over the edges
  whose destination word is `n`, of the table's entry at the edge's clamped source row times the edge's weight, plus the
  bias's entry c.  Also here: the second arrangement of the specification's layer read at an index.
-/
import proofs.«104596_j70145405878899_2_alg».proof.Proof.Spec
import proofs.«104596_j70145405878899_2_alg».proof.Proof.HostAgg
import proofs.«104596_j70145405878899_2_alg».proof.Proof.LibGatherScatter
import proofs.«104596_j70145405878899_2_alg».proof.Proof.LibHostDot
import Idealize.ShloMosaic.Lib.Pipeline.Value
import Idealize.ShloMosaic.PureOps.Ideal.Laws

noncomputable section

open scoped BigOperators

namespace Cert.GcnSpec

open Idealize.ShloMosaic Idealize.ShloMosaic.ValueIdx Idealize.ShloMosaic.ScatterRows Idealize.ShloMosaic.GatherTable
open Idealize.ShloMosaic.GatherScatterIdx

/-- The second arrangement of the layer read at (n, c). -/
theorem layerR_apply {K C : ℕ} (relu : Bool) (cw : Fin 680000 → BitVec 32) (r s : Fin 680000 → Fin 40000)
    (d : (⟨1, ![40000]⟩ : Shape).Idx → EReal) (h : (⟨2, ![40000, K]⟩ : Shape).Idx → EReal)
    (W : (⟨2, ![K, C]⟩ : Shape).Idx → EReal) (b : (⟨1, ![C]⟩ : Shape).Idx → EReal) (n : Fin 40000) (c : Fin C) :
    layerR relu cw r s d h W b (ix2 n c)
      = act relu ((∑ e ∈ Finset.univ.filter (fun e : Fin 680000 => (cw e).toInt = (n.val : ℤ)),
          mm h W (r e) c * (d (ix1 (r e)) * d (ix1 (s e)))) + b (ix1 c)) := rfl

/-- The positive part is the activation of the first two layers. -/
theorem act_true (x : EReal) : act true x = max x 0 := rfl
theorem act_false (x : EReal) : act false x = x := rfl

variable {C : ℕ}

/-- The reference layer's operations, read at (n, c). -/
theorem refLayer_apply
    (wfS : ScatterDims.WF ⟨2, ![40000, C]⟩ ⟨2, ![680000, 1]⟩ ⟨2, ![680000, C]⟩ [1] [0] [0] 1)
    (wfG : GatherDims.WF ⟨2, ![40000, C]⟩ ⟨2, ![680000, 1]⟩ ⟨2, ![680000, C]⟩ [1] [0] [] [0] [] 1 ![1, C])
    (wfg : GatherDims.WF ⟨1, ![40000]⟩ ⟨2, ![680000, 1]⟩ ⟨1, ![680000]⟩ [] [0] [] [0] [] 1 ![1])
    (hb1 : (⟨1, ![680000]⟩ : Shape).BroadcastsInDim ⟨2, ![680000, 1]⟩ ![0])
    (hb2 : (⟨2, ![680000, 1]⟩ : Shape).BroadcastsInDim ⟨2, ![680000, C]⟩ ![0, 1])
    (hb3 : (⟨1, ![C]⟩ : Shape).BroadcastsInDim ⟨2, ![1, C]⟩ ![1])
    (hb4 : (⟨2, ![1, C]⟩ : Shape).BroadcastsInDim ⟨2, ![40000, C]⟩ ![0, 1])
    (zero : FVec Ideal ⟨2, ![40000, C]⟩ .f32) (hzero : ∀ i, zero i = 0)
    (H : FVec Ideal ⟨2, ![40000, C]⟩ .f32) (d : FVec Ideal ⟨1, ![40000]⟩ .f32)
    (selA selB sel col2d : IVec ⟨2, ![680000, 1]⟩ 32) (b : FVec Ideal ⟨1, ![C]⟩ .f32) (n : Fin 40000) (c : Fin C) :
    addf (Host.scatterAdd (rowDims 40000 C 680000 wfS) zero col2d
        (mulf (Host.gather (rowsDims 40000 C 680000 wfG) H sel)
          (broadcastInDim ⟨2, ![680000, C]⟩ ![0, 1] hb2 (broadcastInDim ⟨2, ![680000, 1]⟩ ![0] hb1
            (mulf (Host.gather (rowGather 40000 680000 wfg) d selA) (Host.gather (rowGather 40000 680000 wfg) d selB))))))
      (broadcastInDim ⟨2, ![40000, C]⟩ ![0, 1] hb4 (broadcastInDim ⟨2, ![1, C]⟩ ![1] hb3 b)) (ix2 n c)
    = (∑ e ∈ Finset.univ.filter (fun e : Fin 680000 => (colWord col2d e).toInt = (n.val : ℤ)),
        H (ix2 (rowPos sel e) c) * (d (ix1 (rowPos selA e)) * d (ix1 (rowPos selB e)))) + b (ix1 c) := by
  rw [addf_apply, scatter_zero_apply wfS zero hzero]
  have hbias : broadcastInDim ⟨2, ![40000, C]⟩ ![0, 1] hb4 (broadcastInDim ⟨2, ![1, C]⟩ ![1] hb3 b) (ix2 n c) = b (ix1 c) := by
    rw [broadcastInDim_apply _ hb4 _ (ix2 n c) (ix2 (0 : Fin 1) c) (fun a => by
      match a with
      | ⟨0, _⟩ => rfl
      | ⟨1, _⟩ =>
        show c.val = if C = 1 then 0 else c.val
        have := c.isLt
        split <;> omega)]
    exact broadcastInDim_apply _ hb3 b (ix2 (0 : Fin 1) c) (ix1 c) (fun a => by
      match a with
      | ⟨0, _⟩ =>
        show c.val = if C = 1 then 0 else c.val
        have := c.isLt
        split <;> omega)
  rw [hbias]
  refine congrArg (· + b (ix1 c)) (Finset.sum_congr rfl fun e _ => ?_)
  rw [mulf_apply, gather_rows_apply (by decide) wfG H sel e c]
  refine congrArg (H (ix2 (rowPos sel e) c) * ·) ?_
  rw [broadcastInDim_apply _ hb2 _ (ix2 e c) (ix2 e (0 : Fin 1)) (fun a => by
    match a with
    | ⟨0, _⟩ => show e.val = if (680000 : ℕ) = 1 then 0 else e.val; rw [if_neg (by decide)]
    | ⟨1, _⟩ => rfl)]
  rw [broadcastInDim_apply _ hb1 _ (ix2 e (0 : Fin 1)) (ix1 e) (fun a => by
    match a with
    | ⟨0, _⟩ => show e.val = if (680000 : ℕ) = 1 then 0 else e.val; rw [if_neg (by decide)])]
  rw [mulf_apply, gather_row_apply (by decide) wfg d selA (ix1 e), gather_row_apply (by decide) wfg d selB (ix1 e)]
  rfl

end Cert.GcnSpec

end
-- ==== Proof.RValue.lean ====
/-
  The reference's result as three layers of the specification, each in the arrangement "collect with edge weights
  d (r e) · d (s e), add the bias".  Every layer applies the same operations to the previous layer's table: a matrix
  product on the host, the gather of the product's rows by source index, the gather of the scale vector at the source
  and at the destination index, the weights' product broadcast along the features, the scatter-add by destination into
  zeros, the bias broadcast down the rows, and (for the first two layers) the positive part.  The index columns and
  the scale vector are computed three times over by the same operations of the edge list, so they are the same arrays.
-/
import proofs.«104596_j70145405878899_2_alg».proof.Proof.RefRead
import proofs.«104596_j70145405878899_2_alg».proof.Proof.RefLayer

set_option maxRecDepth 16384

noncomputable section

open scoped BigOperators

namespace Cert.ReferenceIdeal.RefValue

open Cert.ReferenceIdeal Cert.ReferenceIdeal.Gen Cert.ReferenceIdeal.Read Cert.GcnSpec Cert.LibHostDot
open Idealize.ShloMosaic Idealize.ShloMosaic.ValueIdx

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- Each edge's destination word, clamped source row, clamped destination row; each node's scale. -/
abbrev cwR : Fin 680000 → BitVec 32 := colWord (val_main_v42 (F := Ideal) x1)
abbrev rR : Fin 680000 → Fin 40000 := rowPos (val_main_v36 (F := Ideal) x1)
abbrev sR : Fin 680000 → Fin 40000 := rowPos (val_main_v28 (F := Ideal) x1)
abbrev dR : (⟨1, ![40000]⟩ : Shape).Idx → EReal := val_main_v15 (F := Ideal) x1

/-- A broadcast of the zero constant is zero everywhere. -/
theorem bzero {s : Shape} (h : S_.BroadcastsInDim s ![]) (i : s.Idx) :
    broadcastInDim s ![] h (constant (F := Ideal) S_ .f32 0x00000000#32) i = 0 :=
  (broadcastInDim_apply _ h _ i (fun a => a.elim0) (fun a => a.elim0)).trans Ideal.ofBits_zero_f32

/-- The layer's matrix product read at (r, c). -/
theorem H1_apply (r : Fin 40000) (c : Fin 128) :
    val_main_v7 (F := Ideal) x0 x2 (ix2 r c) = mm x0 x2 r c := by
  unfold val_main_v7
  exact dotGeneral_plain_apply' dot_S40000x128_S128x128_S40000x128_1_0_0_1_n_n dot_S40000x128_S128x128_S40000x128_1_0_0_1_n_n_wf rfl none x0 x2 r c

/-- Layer 1 of the reference is the second arrangement of the specification's layer. -/
theorem layer1 : val_main_v47 (F := Ideal) x0 x1 x2 x3
    = layerR true (cwR x1) (rR x1) (sR x1) (dR x1) x0 x2 x3 := by
  funext i
  obtain ⟨n, c, rfl⟩ : ∃ (n : Fin 40000) (c : Fin 128), i = ix2 n c := ⟨i 0, i 1, eq_ix2 i⟩
  rw [layerR_apply, act_true]
  unfold val_main_v47 val_main_v46 val_main_v43 val_main_v40 val_main_v37 val_main_v39 val_main_v38 val_main_v30 val_main_v22 val_main_v29 val_main_v45 val_main_v44 val_main_call1_v0 val_main_call1_cst
  rw [maximumf_apply, bzero]
  refine (congrArg (fun y => max y 0) (refLayer_apply scatter_S40000x128_S680000x1_S680000x128_1_0_0_1_wf gather_S40000x128_S680000x1_S680000x128_1_0_n_n_0_1_1128_wf
      gather_S40000_S680000x1_S680000_n_0_n_n_0_1_1_wf
      bcast_S680000_S680000x1_0 bcast_S680000x1_S680000x128_0_1 bcast_S128_S1x128_1 bcast_S1x128_S40000x128_0_1
      (val_main_v41 (F := Ideal)) (fun i => bzero _ i) (val_main_v7 (F := Ideal) x0 x2) (val_main_v15 (F := Ideal) x1)
      (val_main_v21 (F := Ideal) x1) (val_main_v28 (F := Ideal) x1) (val_main_v36 (F := Ideal) x1) (val_main_v42 (F := Ideal) x1) x3 n c)).trans ?_
  have hA : val_main_v21 (F := Ideal) x1 = val_main_v36 (F := Ideal) x1 := rfl
  rw [hA]
  refine congrArg (fun y => max (y + x3 (ix1 c)) 0) (Finset.sum_congr rfl fun e _ => ?_)
  rw [H1_apply]

/-- The layer's matrix product read at (r, c). -/
theorem H2_apply (r : Fin 40000) (c : Fin 128) :
    val_main_v48 (F := Ideal) x0 x1 x2 x3 x4 (ix2 r c) = mm (val_main_v47 (F := Ideal) x0 x1 x2 x3) x4 r c := by
  unfold val_main_v48
  exact dotGeneral_plain_apply' dot_S40000x128_S128x128_S40000x128_1_0_0_1_n_n dot_S40000x128_S128x128_S40000x128_1_0_0_1_n_n_wf rfl none (val_main_v47 (F := Ideal) x0 x1 x2 x3) x4 r c

/-- Layer 2 of the reference is the second arrangement of the specification's layer. -/
theorem layer2 : val_main_v88 (F := Ideal) x0 x1 x2 x3 x4 x5
    = layerR true (cwR x1) (rR x1) (sR x1) (dR x1) (val_main_v47 (F := Ideal) x0 x1 x2 x3) x4 x5 := by
  funext i
  obtain ⟨n, c, rfl⟩ : ∃ (n : Fin 40000) (c : Fin 128), i = ix2 n c := ⟨i 0, i 1, eq_ix2 i⟩
  rw [layerR_apply, act_true]
  unfold val_main_v88 val_main_v87 val_main_v84 val_main_v81 val_main_v78 val_main_v80 val_main_v79 val_main_v71 val_main_v63 val_main_v70 val_main_v86 val_main_v85 val_main_call3_v0 val_main_call3_cst
  rw [maximumf_apply, bzero]
  refine (congrArg (fun y => max y 0) (refLayer_apply scatter_S40000x128_S680000x1_S680000x128_1_0_0_1_wf gather_S40000x128_S680000x1_S680000x128_1_0_n_n_0_1_1128_wf
      gather_S40000_S680000x1_S680000_n_0_n_n_0_1_1_wf
      bcast_S680000_S680000x1_0 bcast_S680000x1_S680000x128_0_1 bcast_S128_S1x128_1 bcast_S1x128_S40000x128_0_1
      (val_main_v82 (F := Ideal)) (fun i => bzero _ i) (val_main_v48 (F := Ideal) x0 x1 x2 x3 x4) (val_main_v56 (F := Ideal) x1)
      (val_main_v62 (F := Ideal) x1) (val_main_v69 (F := Ideal) x1) (val_main_v77 (F := Ideal) x1) (val_main_v83 (F := Ideal) x1) x5 n c)).trans ?_
  have hd : val_main_v56 (F := Ideal) x1 = val_main_v15 (F := Ideal) x1 := rfl
  have hA : val_main_v62 (F := Ideal) x1 = val_main_v36 (F := Ideal) x1 := rfl
  have hB : val_main_v69 (F := Ideal) x1 = val_main_v28 (F := Ideal) x1 := rfl
  have hS : val_main_v77 (F := Ideal) x1 = val_main_v36 (F := Ideal) x1 := rfl
  have hC : val_main_v83 (F := Ideal) x1 = val_main_v42 (F := Ideal) x1 := rfl
  rw [hd, hA, hB, hS, hC]
  refine congrArg (fun y => max (y + x5 (ix1 c)) 0) (Finset.sum_congr rfl fun e _ => ?_)
  rw [H2_apply]

/-- The layer's matrix product read at (r, c). -/
theorem H3_apply (r : Fin 40000) (c : Fin 64) :
    val_main_v89 (F := Ideal) x0 x1 x2 x3 x4 x5 x6 (ix2 r c) = mm (val_main_v88 (F := Ideal) x0 x1 x2 x3 x4 x5) x6 r c := by
  unfold val_main_v89
  exact dotGeneral_plain_apply' dot_S40000x128_S128x64_S40000x64_1_0_0_1_n_n dot_S40000x128_S128x64_S40000x64_1_0_0_1_n_n_wf rfl none (val_main_v88 (F := Ideal) x0 x1 x2 x3 x4 x5) x6 r c

/-- Layer 3 of the reference is the second arrangement of the specification's layer. -/
theorem layer3 : val_main_v128 (F := Ideal) x0 x1 x2 x3 x4 x5 x6 x7
    = layerR false (cwR x1) (rR x1) (sR x1) (dR x1) (val_main_v88 (F := Ideal) x0 x1 x2 x3 x4 x5) x6 x7 := by
  funext i
  obtain ⟨n, c, rfl⟩ : ∃ (n : Fin 40000) (c : Fin 64), i = ix2 n c := ⟨i 0, i 1, eq_ix2 i⟩
  rw [layerR_apply, act_false]
  unfold val_main_v128 val_main_v125 val_main_v122 val_main_v119 val_main_v121 val_main_v120 val_main_v112 val_main_v104 val_main_v111 val_main_v127 val_main_v126
  refine ((refLayer_apply scatter_S40000x64_S680000x1_S680000x64_1_0_0_1_wf gather_S40000x64_S680000x1_S680000x64_1_0_n_n_0_1_164_wf
      gather_S40000_S680000x1_S680000_n_0_n_n_0_1_1_wf
      bcast_S680000_S680000x1_0 bcast_S680000x1_S680000x64_0_1 bcast_S64_S1x64_1 bcast_S1x64_S40000x64_0_1
      (val_main_v123 (F := Ideal)) (fun i => bzero _ i) (val_main_v89 (F := Ideal) x0 x1 x2 x3 x4 x5 x6) (val_main_v97 (F := Ideal) x1)
      (val_main_v103 (F := Ideal) x1) (val_main_v110 (F := Ideal) x1) (val_main_v118 (F := Ideal) x1) (val_main_v124 (F := Ideal) x1) x7 n c)).trans ?_
  have hd : val_main_v97 (F := Ideal) x1 = val_main_v15 (F := Ideal) x1 := rfl
  have hA : val_main_v103 (F := Ideal) x1 = val_main_v36 (F := Ideal) x1 := rfl
  have hB : val_main_v110 (F := Ideal) x1 = val_main_v28 (F := Ideal) x1 := rfl
  have hS : val_main_v118 (F := Ideal) x1 = val_main_v36 (F := Ideal) x1 := rfl
  have hC : val_main_v124 (F := Ideal) x1 = val_main_v42 (F := Ideal) x1 := rfl
  rw [hd, hA, hB, hS, hC]
  refine congrArg (fun y => y + x7 (ix1 c)) (Finset.sum_congr rfl fun e _ => ?_)
  rw [H3_apply]

/-- The reference's result: three layers in the second arrangement. -/
theorem result_eq : val_main_v128 (F := Ideal) x0 x1 x2 x3 x4 x5 x6 x7
    = layerR false (cwR x1) (rR x1) (sR x1) (dR x1)
        (layerR true (cwR x1) (rR x1) (sR x1) (dR x1)
          (layerR true (cwR x1) (rR x1) (sR x1) (dR x1) x0 x2 x3) x4 x5) x6 x7 := by
  rw [layer3, layer2, layer1]

end Cert.ReferenceIdeal.RefValue

end
-- ==== Proof.Dinv.lean ====
/-
  Two facts about what the reference computes from the edge list alone.

  THE SCALES ARE NON-NEGATIVE REALS.  A node's degree is the scatter-add of ones into zeros: a finite sum of ones and
  zeros, hence a non-negative real.  Its scale is the degree's reciprocal square root where the degree is positive — the
  reciprocal of a real square root, a non-negative real — and zero elsewhere.

  AN EDGE COLLECTED AT NODE n HAS DESTINATION ROW n.  The scatter collects edge `e` at node `n` when `e`'s destination
  word read as a signed integer is `n`, which lies in [0, 40000).  The gather of the scale at the destination first adds
  40000 to a negative word (this one is not negative, so it is left alone) and then clamps into [0, 39999] (it is
  already there).
-/
import proofs.«104596_j70145405878899_2_alg».proof.Proof.RefRead
import proofs.«104596_j70145405878899_2_alg».proof.Proof.HostAgg
import proofs.«104596_j70145405878899_2_alg».proof.Proof.LibGatherScatter

set_option maxRecDepth 16384

noncomputable section

open scoped BigOperators

namespace Cert.ReferenceIdeal.Scale

open Cert.ReferenceIdeal Cert.ReferenceIdeal.Gen Cert.ReferenceIdeal.Read Cert.GcnSpec
open Idealize.ShloMosaic Idealize.ShloMosaic.ValueIdx Idealize.ShloMosaic.GatherScatterIdx Idealize.ShloMosaic.GatherTable

variable (x1 : (⟨S2x640000, .i32⟩ : BufTy).Contents (Elt Ideal))

/-- The word of `1.0` denotes the real 1. -/
theorem one_word : Ideal.ofBits .f32 0x3F800000#32 = 1 := by
  simp [Ideal.ofBits, Ideal.ieee, -EReal.coe_mul]; norm_num

/-- A broadcast of the zero constant is zero everywhere. -/
theorem bzero {s : Shape} (h : S_.BroadcastsInDim s ![]) (i : s.Idx) :
    broadcastInDim s ![] h (constant (F := Ideal) S_ .f32 0x00000000#32) i = 0 :=
  (broadcastInDim_apply _ h _ i (fun a => a.elim0) (fun a => a.elim0)).trans Ideal.ofBits_zero_f32

/-- A finite sum of non-negative reals is a non-negative real. -/
theorem sum_real_nonneg {ι : Type} (S : Finset ι) (f : ι → EReal)
    (h : ∀ e ∈ S, ∃ y : ℝ, 0 ≤ y ∧ f e = (y : EReal)) : ∃ y : ℝ, 0 ≤ y ∧ ∑ e ∈ S, f e = (y : EReal) := by
  classical
  induction S using Finset.induction_on with
  | empty => exact ⟨0, le_refl _, by simp⟩
  | insert a S ha ih =>
    obtain ⟨y1, h1, e1⟩ := h a (Finset.mem_insert_self _ _)
    obtain ⟨y2, h2, e2⟩ := ih (fun e he => h e (Finset.mem_insert_of_mem he))
    exact ⟨y1 + y2, add_nonneg h1 h2, by rw [Finset.sum_insert ha, e1, e2, EReal.coe_add]⟩

/-- A node's degree is a non-negative real. -/
theorem deg_real (n : Fin 40000) : ∃ y : ℝ, 0 ≤ y ∧ val_main_v11 (F := Ideal) x1 (ix1 n) = (y : EReal) := by
  have hv := scatterAdd_row_apply (N := 40000) (E := 680000) scatter_S40000_S680000x1_S680000_n_0_0_1_wf
    (val_main_v9 (F := Ideal)) (val_main_v10 (F := Ideal) x1) (val_main_v8 (F := Ideal)) (ix1 n)
  have hv' : val_main_v11 (F := Ideal) x1 (ix1 n) = _ := hv
  rw [hv', show val_main_v9 (F := Ideal) (ix1 n) = 0 from bzero _ _, zero_add]
  refine sum_real_nonneg _ _ (fun e _ => ?_)
  have h8 : val_main_v8 (F := Ideal) (ix1 e) = 1 :=
    (broadcastInDim_apply _ bcast_S_S680000 _ (ix1 e) (fun a => a.elim0) (fun a => a.elim0)).trans one_word
  split
  · exact ⟨1, zero_le_one, by rw [h8, EReal.coe_one]⟩
  · exact ⟨0, le_refl _, by rw [EReal.coe_zero]⟩

/-- A node's scale is a non-negative real. -/
theorem scale_real (n : Fin 40000) : ∃ x : ℝ, 0 ≤ x ∧ val_main_v15 (F := Ideal) x1 (ix1 n) = (x : EReal) := by
  obtain ⟨y, hy0, hy⟩ := deg_real x1 n
  have h12 : val_main_v12 (F := Ideal) (ix1 n) = 0 := bzero _ _
  have hc1 : val_main_call0_v1 (F := Ideal) (ix1 n) = 0 := bzero _ _
  rw [val_main_v15_apply, val_main_v13_apply, val_main_v14_apply, hy, h12, hc1]
  show ∃ x : ℝ, 0 ≤ x ∧ Scalar.select (Ideal.cmp .ogt (y : EReal) 0) (Ideal.rsqrt (y : EReal)) 0 = (x : EReal)
  by_cases hpos : 0 < y
  · have hc : Ideal.cmp .ogt (y : EReal) 0 = 1#1 := by
      simp [Ideal.cmp, hpos]
    have hr : Ideal.rsqrt (y : EReal) = (((Real.sqrt y)⁻¹ : ℝ) : EReal) := by
      show (if y < 0 then ⊥ else if y = 0 then ⊤ else (((Real.sqrt y)⁻¹ : ℝ) : EReal)) = _
      rw [if_neg (not_lt.mpr hpos.le), if_neg hpos.ne']
    refine ⟨(Real.sqrt y)⁻¹, inv_nonneg.mpr (Real.sqrt_nonneg y), ?_⟩
    rw [hc, hr]
    rfl
  · have hc : Ideal.cmp .ogt (y : EReal) 0 = 0#1 := by
      simp [Ideal.cmp, hpos]
    refine ⟨0, le_refl _, ?_⟩
    rw [hc, EReal.coe_zero]
    rfl

/-- An edge collected at node `n` has clamped destination row `n`. -/
theorem dest_pos (e : Fin 680000) (n : Fin 40000)
    (h : (colWord (val_main_v42 (F := Ideal) x1) e).toInt = (n.val : ℤ)) :
    rowPos (val_main_v28 (F := Ideal) x1) e = n := by
  have h42 : val_main_v42 (F := Ideal) x1 (ix2 e (0 : Fin 1)) = val_main_v6 (F := Ideal) x1 (ix1 e) :=
    (val_main_v42_apply x1 _).trans (congrArg _ (funext fun a => by match a with | ⟨0, _⟩ => rfl))
  have h28 : val_main_v28 (F := Ideal) x1 (ix2 e (0 : Fin 1)) = val_main_v27 (F := Ideal) x1 (ix1 e) :=
    (val_main_v28_apply x1 _).trans (congrArg _ (funext fun a => by match a with | ⟨0, _⟩ => rfl))
  have hw : (val_main_v6 (F := Ideal) x1 (ix1 e)).toInt = (n.val : ℤ) := by rw [← h42]; exact h
  have h23 : val_main_v23 (F := Ideal) (ix1 e) = 0#32 := (val_main_v23_apply _).trans (val_main_c_4_apply _)
  have hnn : ¬ ((n.val : ℤ) < 0) := by omega
  have hlt : IntOp.cmpi .slt (val_main_v6 (F := Ideal) x1 (ix1 e)) 0#32 = 0#1 := by
    simp [IntOp.cmpi, BitVec.slt, hw, hnn]
  have h27 : val_main_v27 (F := Ideal) x1 (ix1 e) = val_main_v6 (F := Ideal) x1 (ix1 e) := by
    rw [val_main_v27_apply, val_main_v24_apply, h23, hlt]
    rfl
  show clampIdx 40000 _ (val_main_v28 (F := Ideal) x1 (ix2 e (0 : Fin 1))) = n
  rw [h28, h27]
  apply Fin.ext
  show min (val_main_v6 (F := Ideal) x1 (ix1 e)).toInt.toNat (40000 - 1) = n.val
  rw [hw]
  have := n.isLt
  omega

end Cert.ReferenceIdeal.Scale

end
-- ==== Proof.Bridge.lean ====
/-
  The kernel's result array and the reference's result term are one function of the argument arrays.

  The kernel's program leaves three layers in the arrangement "scale the product's rows, collect, scale the collected
  rows, add the bias"; the reference computes three layers in the arrangement "collect with edge weights
  d (r e) · d (s e), add the bias".  Both use the same edge data — destination words, clamped source rows — and the
  same scales, because both derive them from the edge list by the same host operations.  Layer by layer, from the
  innermost out, the first arrangement is the second: the scales are non-negative reals, so the factor d n distributes
  over the collected sum, and an edge collected at n has destination row n.
-/
import proofs.«104596_j70145405878899_2_alg».proof.Proof.KWalk
import proofs.«104596_j70145405878899_2_alg».proof.Proof.RValue
import proofs.«104596_j70145405878899_2_alg».proof.Proof.Dinv

set_option maxRecDepth 16384

noncomputable section

namespace Cert.KernelIdeal.Walk

open Cert.KernelIdeal Cert.KernelIdeal.Gen Cert.GcnSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The scale column's entry (n, 0) is the scale vector's entry n. -/
theorem dcol_apply (x1 : (⟨S2x640000, .i32⟩ : BufTy).Contents (Elt Ideal)) (n : Fin 40000) :
    dcolOf x1 (ix2 n (0 : Fin 1)) = Cert.ReferenceIdeal.Read.val_main_v15 (F := Ideal) x1 (ix1 n) :=
  broadcastInDim_apply _ bcast_S40000_S40000x1_0 _ (ix2 n (0 : Fin 1)) (ix1 n) (fun a => by
    match a with
    | ⟨0, _⟩ => show n.val = if (40000 : ℕ) = 1 then 0 else n.val; rw [if_neg (by decide)])

/-- THE BRIDGE: the kernel's result array at the last boundary is the reference's result term of the same arguments. -/
theorem result_eq : W12 m ρ c (Proc.devRef .tc main_v51)
    = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W12_result, Cert.ReferenceIdeal.RefValue.result_eq]
  have hcw : cwF m c = Cert.ReferenceIdeal.RefValue.cwR (m ((c : Thread nD τ).loc main_arg1)) := rfl
  have hr : rF m c = Cert.ReferenceIdeal.RefValue.rR (m ((c : Thread nD τ).loc main_arg1)) := rfl
  rw [hcw, hr]
  have law : ∀ {K C : ℕ} (relu : Bool) (h : (⟨2, ![40000, K]⟩ : Shape).Idx → EReal) (W : (⟨2, ![K, C]⟩ : Shape).Idx → EReal)
      (b : (⟨1, ![C]⟩ : Shape).Idx → EReal),
      layerK relu (Cert.ReferenceIdeal.RefValue.cwR (m ((c : Thread nD τ).loc main_arg1))) (Cert.ReferenceIdeal.RefValue.rR (m ((c : Thread nD τ).loc main_arg1))) (DC m c) h W b
        = layerR relu (Cert.ReferenceIdeal.RefValue.cwR (m ((c : Thread nD τ).loc main_arg1))) (Cert.ReferenceIdeal.RefValue.rR (m ((c : Thread nD τ).loc main_arg1)))
            (Cert.ReferenceIdeal.RefValue.sR (m ((c : Thread nD τ).loc main_arg1))) (Cert.ReferenceIdeal.RefValue.dR (m ((c : Thread nD τ).loc main_arg1))) h W b :=
    fun relu h W b => layerK_eq_layerR relu _ _ _ _ _ (dcol_apply _) (Cert.ReferenceIdeal.Scale.scale_real _)
      (Cert.ReferenceIdeal.Scale.dest_pos _) h W b
  rw [law, law, law]

end Cert.KernelIdeal.Walk

end
-- ==== Proof.lean ====
/-
  The proof of the certificate's claim: a three-layer graph convolution computed by six kernel launches among host
  gathers and scatter-adds, against the plain reference, over the extended reals.

  The three frames are the programs' runs with the results dropped.  The idealization rewrote nothing, so there is
  nothing to preserve.  For the algebraic claim both programs run from memories that agree on the arguments: the
  kernel's program leaves its result array at the last segment boundary's contents, the reference's at its composed
  term, and the two are one function of the arguments (Proof/Bridge.lean).
-/
import proofs.«104596_j70145405878899_2_alg».proof.Defs
import proofs.«104596_j70145405878899_2_alg».proof.Proof.Gen.Kernel
import proofs.«104596_j70145405878899_2_alg».proof.Proof.Gen.Kernel.Skeleton
import proofs.«104596_j70145405878899_2_alg».proof.Proof.Gen.Kernel.Launch
import proofs.«104596_j70145405878899_2_alg».proof.Proof.Gen.Kernel.Points
import proofs.«104596_j70145405878899_2_alg».proof.Proof.Gen.Kernel.Frame
import proofs.«104596_j70145405878899_2_alg».proof.Proof.Gen.KernelIdeal
import proofs.«104596_j70145405878899_2_alg».proof.Proof.Gen.KernelIdeal.Skeleton
import proofs.«104596_j70145405878899_2_alg».proof.Proof.Gen.KernelIdeal.Launch
import proofs.«104596_j70145405878899_2_alg».proof.Proof.Gen.KernelIdeal.Points
import proofs.«104596_j70145405878899_2_alg».proof.Proof.Gen.KernelIdeal.Frame
import proofs.«104596_j70145405878899_2_alg».proof.Proof.Gen.ReferenceIdeal
import proofs.«104596_j70145405878899_2_alg».proof.Proof.Gen.Pre_finite_inputs
import proofs.«104596_j70145405878899_2_alg».proof.Proof.RefRead
import proofs.«104596_j70145405878899_2_alg».proof.Proof.KRun
import proofs.«104596_j70145405878899_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, the arguments end unchanged, and the two result arrays are the reference's result term of the
    kernel's arguments: the kernel's by the bridge, the reference's by its run and the memories' agreement. -/
theorem algebraic : Cert.algebraic_KernelIdeal_ReferenceIdeal := by
  intro m ρ m' ρ' _ hagree
  refine ⟨fun c => Cert.KernelIdeal.Gen.W12 m ρ c (Proc.devRef .tc Cert.KernelIdeal.main_v51), ?_, ?_⟩
  · exact Cert.KernelIdeal.RunNamed.run_named (F := Ideal) m ρ
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v128_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.KernelIdeal.Walk.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
